-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x288x256 : Shape := ⟨3, ![64, 288, 256]⟩
abbrev S3072x3072 : Shape := ⟨2, ![3072, 3072]⟩
abbrev S3072 : Shape := ⟨1, ![3072]⟩
abbrev S_ : Shape := ⟨0, ![]⟩

class Facts : Prop where
  bcast_S_S64x288x256 : S_.BroadcastsInDim S64x288x256 (![] : Fin 0 → Fin S64x288x256.rank)
  reducesTo_S64x288x256_S_d0_1_2 : S64x288x256.ReducesTo [0, 1, 2] S_
  h_S_ : 0 < S_.numel
  bcast_S_S3072x3072 : S_.BroadcastsInDim S3072x3072 (![] : Fin 0 → Fin S3072x3072.rank)
  reducesTo_S3072x3072_S_d0_1 : S3072x3072.ReducesTo [0, 1] S_
  bcast_S_S3072 : S_.BroadcastsInDim S3072 (![] : Fin 0 → Fin S3072.rank)
  reducesTo_S3072_S_d0 : S3072.ReducesTo [0] S_

variable [Facts]

def fn {F : FTy → Type} [FloatOps F] (main_arg0 : FVec F S64x288x256 .f32) (main_arg1 : FVec F S3072x3072 .f32) (main_arg2 : FVec F S3072 .f32) : IVec S_ 1 :=
  let main_v0 : FVec F S64x288x256 .f32 := Host.absf main_arg0
  let main_cst : FVec F S_ .f32 := constant S_ .f32 0x7F800000#32
  let main_v1 : FVec F S64x288x256 .f32 := broadcastInDim S64x288x256 ![] bcast_S_S64x288x256 main_cst
  let main_v2 : IVec S64x288x256 1 := cmpf .olt main_v0 main_v1
  let main_c : IVec S_ 1 := constantI S_ 1 1#1
  let main_v3 : IVec S_ 1 := (fun x v => Host.reduce IntOp.andi x v reducesTo_S64x288x256_S_d0_1_2 h_S_) main_v2 main_c
  let main_v4 : FVec F S3072x3072 .f32 := Host.absf main_arg1
  let main_cst_0 : FVec F S_ .f32 := constant S_ .f32 0x7F800000#32
  let main_v5 : FVec F S3072x3072 .f32 := broadcastInDim S3072x3072 ![] bcast_S_S3072x3072 main_cst_0
  let main_v6 : IVec S3072x3072 1 := cmpf .olt main_v4 main_v5
  let main_c_1 : IVec S_ 1 := constantI S_ 1 1#1
  let main_v7 : IVec S_ 1 := (fun x v => Host.reduce IntOp.andi x v reducesTo_S3072x3072_S_d0_1 h_S_) main_v6 main_c_1
  let main_v8 : IVec S_ 1 := andi main_v3 main_v7
  let main_v9 : FVec F S3072 .f32 := Host.absf main_arg2
  let main_cst_2 : FVec F S_ .f32 := constant S_ .f32 0x7F800000#32
  let main_v10 : FVec F S3072 .f32 := broadcastInDim S3072 ![] bcast_S_S3072 main_cst_2
  let main_v11 : IVec S3072 1 := cmpf .olt main_v9 main_v10
  let main_c_3 : IVec S_ 1 := constantI S_ 1 1#1
  let main_v12 : IVec S_ 1 := (fun x v => Host.reduce IntOp.andi x v reducesTo_S3072_S_d0 h_S_) main_v11 main_c_3
  let main_v13 : IVec S_ 1 := andi main_v8 main_v12
  main_v13
-- ==== Kernel.lean ====
abbrev S64x288x256 : Shape := ⟨3, ![64, 288, 256]⟩
abbrev S3072x3072 : Shape := ⟨2, ![3072, 3072]⟩
abbrev S3072 : Shape := ⟨1, ![3072]⟩
abbrev S1x3072 : Shape := ⟨2, ![1, 3072]⟩
abbrev S64x276x3072 : Shape := ⟨3, ![64, 276, 3072]⟩
abbrev S4x288x256 : Shape := ⟨3, ![4, 288, 256]⟩
abbrev S4x276x512 : Shape := ⟨3, ![4, 276, 512]⟩
abbrev S1104x3072 : Shape := ⟨2, ![1104, 3072]⟩
abbrev S4x276x256 : Shape := ⟨3, ![4, 276, 256]⟩
abbrev S1104x256 : Shape := ⟨2, ![1104, 256]⟩
abbrev S512x3072 : Shape := ⟨2, ![512, 3072]⟩
abbrev S1x512 : Shape := ⟨2, ![1, 512]⟩
abbrev S1104x512 : Shape := ⟨2, ![1104, 512]⟩
abbrev S64x276x12x256 : Shape := ⟨4, ![64, 276, 12, 256]⟩

abbrev nBuf : Space → Nat
  | .hbm => 7
  | .vmem => 7
  | .smem => 0
  | _ => 0

abbrev bufTy : (tb : Table) → Fin (tcTables nBuf tb) → BufTy
  | .hbm, ⟨0, _⟩ => ⟨S64x288x256, .f32⟩
  | .hbm, ⟨1, _⟩ => ⟨S3072x3072, .f32⟩
  | .hbm, ⟨2, _⟩ => ⟨S3072, .f32⟩
  | .hbm, ⟨3, _⟩ => ⟨S3072x3072, .bf16⟩
  | .hbm, ⟨4, _⟩ => ⟨S1x3072, .f32⟩
  | .hbm, ⟨5, _⟩ => ⟨S64x276x3072, .f32⟩
  | .hbm, ⟨6, _⟩ => ⟨S64x276x12x256, .f32⟩
  | .local _ .vmem, ⟨0, _⟩ => ⟨S4x288x256, .f32⟩
  | .local _ .vmem, ⟨1, _⟩ => ⟨S4x288x256, .f32⟩
  | .local _ .vmem, ⟨2, _⟩ => ⟨S3072x3072, .bf16⟩
  | .local _ .vmem, ⟨3, _⟩ => ⟨S1x3072, .f32⟩
  | .local _ .vmem, ⟨4, _⟩ => ⟨S4x276x512, .f32⟩
  | .local _ .vmem, ⟨5, _⟩ => ⟨S4x276x512, .f32⟩
  | .local _ .vmem, ⟨6, _⟩ => ⟨S1104x3072, .bf16⟩
  | _, _ => ⟨S64x288x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![16, 6], ![false, false]⟩

def k0_mult1 (i : grid0.Coords) : BitVec 32 :=
  let arg1 : BitVec 32 := BitVec.ofNat 32 (i 1).val
  let c512_i32 : BitVec 32 := 512#32
  let v3 : BitVec 32 := Scalar.muli arg1 c512_i32
  v3
def k0_off1 (i : grid0.Coords) : Fin 2 → Nat :=
  let arg1 : BitVec 32 := BitVec.ofNat 32 (i 1).val
  let c512_i32 : BitVec 32 := 512#32
  let v3 : BitVec 32 := Scalar.muli arg1 c512_i32
  let v4 : BitVec 32 := v3
  let v5 : Index := Scalar.indexCast v4
  let c0 : Index := 0#32
  ![v5.toNat, 0]
def k0_off2 (i : grid0.Coords) : Fin 2 → Nat :=
  let c0_1 : Index := 0#32
  let arg1 : BitVec 32 := BitVec.ofNat 32 (i 1).val
  let c512_i32 : BitVec 32 := 512#32
  let v3 : BitVec 32 := Scalar.muli arg1 c512_i32
  let v4 : BitVec 32 := v3
  let v8 : Index := Scalar.indexCast v4
  ![0, v8.toNat]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S4x288x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S3072x3072 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x3072 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S4x276x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  bitsLt_bf16_f32 : FTy.bits .bf16 < FTy.bits .f32
  shapeCasts_S3072_S1x3072 : S3072.ShapeCasts S1x3072
  inb_S4x288x256_S4x276x256_0_0_0 : ∀ a, (![0, 0, 0] : Fin 3 → Nat) a + S4x276x256.size a ≤ S4x288x256.size a
  h_S4x276x256 : 0 < S4x276x256.numel
  shapeCasts_S4x276x256_S1104x256 : S4x276x256.ShapeCasts S1104x256
  inb_S1104x3072_S1104x256_0_0 : ∀ a, (![0, 0] : Fin 2 → Nat) a + S1104x256.size a ≤ S1104x3072.size a
  h_S1104x256 : 0 < S1104x256.numel
  shapeCasts_S1104x256_S1104x256 : S1104x256.ShapeCasts S1104x256
  packedbf16_S1104x3072_S1104x256_0_0 : (Rect.unit (s := S1104x3072) ![0, 0] S1104x256.size inb_S1104x3072_S1104x256_0_0).PackedRows (EltTy.packing .bf16)
  inb_S4x288x256_S4x276x256_0_1_0 : ∀ a, (![0, 1, 0] : Fin 3 → Nat) a + S4x276x256.size a ≤ S4x288x256.size a
  inb_S1104x3072_S1104x256_0_256 : ∀ a, (![0, 256] : Fin 2 → Nat) a + S1104x256.size a ≤ S1104x3072.size a
  packedbf16_S1104x3072_S1104x256_0_256 : (Rect.unit (s := S1104x3072) ![0, 256] S1104x256.size inb_S1104x3072_S1104x256_0_256).PackedRows (EltTy.packing .bf16)
  inb_S4x288x256_S4x276x256_0_2_0 : ∀ a, (![0, 2, 0] : Fin 3 → Nat) a + S4x276x256.size a ≤ S4x288x256.size a
  inb_S1104x3072_S1104x256_0_512 : ∀ a, (![0, 512] : Fin 2 → Nat) a + S1104x256.size a ≤ S1104x3072.size a
  packedbf16_S1104x3072_S1104x256_0_512 : (Rect.unit (s := S1104x3072) ![0, 512] S1104x256.size inb_S1104x3072_S1104x256_0_512).PackedRows (EltTy.packing .bf16)
  inb_S4x288x256_S4x276x256_0_3_0 : ∀ a, (![0, 3, 0] : Fin 3 → Nat) a + S4x276x256.size a ≤ S4x288x256.size a
  inb_S1104x3072_S1104x256_0_768 : ∀ a, (![0, 768] : Fin 2 → Nat) a + S1104x256.size a ≤ S1104x3072.size a
  packedbf16_S1104x3072_S1104x256_0_768 : (Rect.unit (s := S1104x3072) ![0, 768] S1104x256.size inb_S1104x3072_S1104x256_0_768).PackedRows (EltTy.packing .bf16)
  inb_S4x288x256_S4x276x256_0_4_0 : ∀ a, (![0, 4, 0] : Fin 3 → Nat) a + S4x276x256.size a ≤ S4x288x256.size a
  inb_S1104x3072_S1104x256_0_1024 : ∀ a, (![0, 1024] : Fin 2 → Nat) a + S1104x256.size a ≤ S1104x3072.size a
  packedbf16_S1104x3072_S1104x256_0_1024 : (Rect.unit (s := S1104x3072) ![0, 1024] S1104x256.size inb_S1104x3072_S1104x256_0_1024).PackedRows (EltTy.packing .bf16)
  inb_S4x288x256_S4x276x256_0_5_0 : ∀ a, (![0, 5, 0] : Fin 3 → Nat) a + S4x276x256.size a ≤ S4x288x256.size a
  inb_S1104x3072_S1104x256_0_1280 : ∀ a, (![0, 1280] : Fin 2 → Nat) a + S1104x256.size a ≤ S1104x3072.size a
  packedbf16_S1104x3072_S1104x256_0_1280 : (Rect.unit (s := S1104x3072) ![0, 1280] S1104x256.size inb_S1104x3072_S1104x256_0_1280).PackedRows (EltTy.packing .bf16)
  inb_S4x288x256_S4x276x256_0_6_0 : ∀ a, (![0, 6, 0] : Fin 3 → Nat) a + S4x276x256.size a ≤ S4x288x256.size a
  inb_S1104x3072_S1104x256_0_1536 : ∀ a, (![0, 1536] : Fin 2 → Nat) a + S1104x256.size a ≤ S1104x3072.size a
  packedbf16_S1104x3072_S1104x256_0_1536 : (Rect.unit (s := S1104x3072) ![0, 1536] S1104x256.size inb_S1104x3072_S1104x256_0_1536).PackedRows (EltTy.packing .bf16)
  inb_S4x288x256_S4x276x256_0_7_0 : ∀ a, (![0, 7, 0] : Fin 3 → Nat) a + S4x276x256.size a ≤ S4x288x256.size a
  inb_S1104x3072_S1104x256_0_1792 : ∀ a, (![0, 1792] : Fin 2 → Nat) a + S1104x256.size a ≤ S1104x3072.size a
  packedbf16_S1104x3072_S1104x256_0_1792 : (Rect.unit (s := S1104x3072) ![0, 1792] S1104x256.size inb_S1104x3072_S1104x256_0_1792).PackedRows (EltTy.packing .bf16)
  inb_S4x288x256_S4x276x256_0_8_0 : ∀ a, (![0, 8, 0] : Fin 3 → Nat) a + S4x276x256.size a ≤ S4x288x256.size a
  inb_S1104x3072_S1104x256_0_2048 : ∀ a, (![0, 2048] : Fin 2 → Nat) a + S1104x256.size a ≤ S1104x3072.size a
  packedbf16_S1104x3072_S1104x256_0_2048 : (Rect.unit (s := S1104x3072) ![0, 2048] S1104x256.size inb_S1104x3072_S1104x256_0_2048).PackedRows (EltTy.packing .bf16)
  inb_S4x288x256_S4x276x256_0_9_0 : ∀ a, (![0, 9, 0] : Fin 3 → Nat) a + S4x276x256.size a ≤ S4x288x256.size a
  inb_S1104x3072_S1104x256_0_2304 : ∀ a, (![0, 2304] : Fin 2 → Nat) a + S1104x256.size a ≤ S1104x3072.size a
  packedbf16_S1104x3072_S1104x256_0_2304 : (Rect.unit (s := S1104x3072) ![0, 2304] S1104x256.size inb_S1104x3072_S1104x256_0_2304).PackedRows (EltTy.packing .bf16)
  inb_S4x288x256_S4x276x256_0_10_0 : ∀ a, (![0, 10, 0] : Fin 3 → Nat) a + S4x276x256.size a ≤ S4x288x256.size a
  inb_S1104x3072_S1104x256_0_2560 : ∀ a, (![0, 2560] : Fin 2 → Nat) a + S1104x256.size a ≤ S1104x3072.size a
  packedbf16_S1104x3072_S1104x256_0_2560 : (Rect.unit (s := S1104x3072) ![0, 2560] S1104x256.size inb_S1104x3072_S1104x256_0_2560).PackedRows (EltTy.packing .bf16)
  inb_S4x288x256_S4x276x256_0_11_0 : ∀ a, (![0, 11, 0] : Fin 3 → Nat) a + S4x276x256.size a ≤ S4x288x256.size a
  inb_S1104x3072_S1104x256_0_2816 : ∀ a, (![0, 2816] : Fin 2 → Nat) a + S1104x256.size a ≤ S1104x3072.size a
  packedbf16_S1104x3072_S1104x256_0_2816 : (Rect.unit (s := S1104x3072) ![0, 2816] S1104x256.size inb_S1104x3072_S1104x256_0_2816).PackedRows (EltTy.packing .bf16)
  h_S512x3072 : 0 < S512x3072.numel
  shapeCasts_S512x3072_S512x3072 : S512x3072.ShapeCasts S512x3072
  h_S1x512 : 0 < S1x512.numel
  shapeCasts_S1x512_S1x512 : S1x512.ShapeCasts S1x512
  inb_S1104x3072_S1104x3072_0_0 : ∀ a, (![0, 0] : Fin 2 → Nat) a + S1104x3072.size a ≤ S1104x3072.size a
  h_S1104x3072 : 0 < S1104x3072.numel
  broadcasts_S1x512_S1104x512 : S1x512.Broadcasts S1104x512
  shapeCasts_S1104x512_S4x276x512 : S1104x512.ShapeCasts S4x276x512
  inb_S4x276x512_S4x276x512_0_0_0 : ∀ a, (![0, 0, 0] : Fin 3 → Nat) a + S4x276x512.size a ≤ S4x276x512.size a
  h_S4x276x512 : 0 < S4x276x512.numel
  shapeCasts_S64x276x3072_S64x276x12x256 : S64x276x3072.ShapeCasts S64x276x12x256
  dot_S1104x3072_S512x3072_S1104x512_1_1_0_0_n_n_wf : DotDims.WF S1104x3072 S512x3072 S1104x512 [1] [1] [0] [0] [] []
  hrank0 : 0 < grid0.rank
  k0_mult1_dvd : ∀ i : grid0.Coords, 512 ∣ (k0_mult1 i).toNat
  k0_off1_inb : ∀ i : grid0.Coords, ∀ a, (k0_off1 i) a + S512x3072.size a ≤ S3072x3072.size a
  k0_off2_inb : ∀ i : grid0.Coords, ∀ a, (k0_off2 i) a + S1x512.size a ≤ S1x3072.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4x288x256.size a ≤ S64x288x256.size a
  hwx0_0 : ∀ i : grid0.Coords, EltTy.bits .f32 = 32 ∨ (Rect.block (s := S64x288x256) S4x288x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S3072x3072.size a ≤ S3072x3072.size a
  hwx0_1 : ∀ i : grid0.Coords, EltTy.bits .bf16 = 32 ∨ (Rect.block (s := S3072x3072) S3072x3072.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x3072.size a ≤ S1x3072.size a
  hwx0_2 : ∀ i : grid0.Coords, EltTy.bits .f32 = 32 ∨ (Rect.block (s := S1x3072) S1x3072.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4x276x512.size a ≤ S64x276x3072.size a
  hwx0_3 : ∀ i : grid0.Coords, EltTy.bits .f32 = 32 ∨ (Rect.block (s := S64x276x3072) S4x276x512.size (cc0_transform_3 i) (hinb0_3 i)).WholeWords (EltTy.packing .f32)

variable [Facts₀]

def dot_S1104x3072_S512x3072_S1104x512_1_1_0_0_n_n : DotDims S1104x3072 S512x3072 S1104x512 where
  lhsContracting := [1]
  rhsContracting := [1]
  lhsNonContracting := [0]
  rhsNonContracting := [0]
  lhsBatch := []
  rhsBatch := []
  wf := dot_S1104x3072_S512x3072_S1104x512_1_1_0_0_n_n_wf

abbrev win0_0 : Pipeline.Window sig grid0 :=
  Pipeline.Window.ofSpec (Memref.whole main_arg0) S4x288x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S3072x3072.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x3072.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S4x276x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S64x288x256 : Shape := ⟨3, ![64, 288, 256]⟩
abbrev S3072x3072 : Shape := ⟨2, ![3072, 3072]⟩
abbrev S3072 : Shape := ⟨1, ![3072]⟩
abbrev S276 : Shape := ⟨1, ![276]⟩
abbrev S276x1 : Shape := ⟨2, ![276, 1]⟩
abbrev S12 : Shape := ⟨1, ![12]⟩
abbrev S1x12 : Shape := ⟨2, ![1, 12]⟩
abbrev S276x12 : Shape := ⟨2, ![276, 12]⟩
abbrev S_ : Shape := ⟨0, ![]⟩
abbrev S276x12x1 : Shape := ⟨3, ![276, 12, 1]⟩
abbrev S64x276x12x256 : Shape := ⟨4, ![64, 276, 12, 256]⟩
abbrev S64x276x3072 : Shape := ⟨3, ![64, 276, 3072]⟩
abbrev S1x1x3072 : Shape := ⟨3, ![1, 1, 3072]⟩

abbrev nBuf : Space → Nat
  | .hbm => 25
  | .vmem => 0
  | .smem => 0
  | _ => 0

abbrev bufTy : (tb : Table) → Fin (tcTables nBuf tb) → BufTy
  | .hbm, ⟨0, _⟩ => ⟨S64x288x256, .f32⟩
  | .hbm, ⟨1, _⟩ => ⟨S3072x3072, .f32⟩
  | .hbm, ⟨2, _⟩ => ⟨S3072, .f32⟩
  | .hbm, ⟨3, _⟩ => ⟨S276, .i32⟩
  | .hbm, ⟨4, _⟩ => ⟨S276x1, .i32⟩
  | .hbm, ⟨5, _⟩ => ⟨S12, .i32⟩
  | .hbm, ⟨6, _⟩ => ⟨S1x12, .i32⟩
  | .hbm, ⟨7, _⟩ => ⟨S276x12, .i32⟩
  | .hbm, ⟨8, _⟩ => ⟨S276x12, .i32⟩
  | .hbm, ⟨9, _⟩ => ⟨S276x12, .i32⟩
  | .hbm, ⟨10, _⟩ => ⟨S_, .i32⟩
  | .hbm, ⟨11, _⟩ => ⟨S276x12, .i32⟩
  | .hbm, ⟨12, _⟩ => ⟨S276x12, .i1⟩
  | .hbm, ⟨13, _⟩ => ⟨S_, .i32⟩
  | .hbm, ⟨14, _⟩ => ⟨S276x12, .i32⟩
  | .hbm, ⟨15, _⟩ => ⟨S276x12, .i32⟩
  | .hbm, ⟨16, _⟩ => ⟨S276x12, .i32⟩
  | .hbm, ⟨17, _⟩ => ⟨S276x12x1, .i32⟩
  | .hbm, ⟨18, _⟩ => ⟨S64x276x12x256, .f32⟩
  | .hbm, ⟨19, _⟩ => ⟨S64x276x3072, .f32⟩
  | .hbm, ⟨20, _⟩ => ⟨S64x276x3072, .f32⟩
  | .hbm, ⟨21, _⟩ => ⟨S1x1x3072, .f32⟩
  | .hbm, ⟨22, _⟩ => ⟨S64x276x3072, .f32⟩
  | .hbm, ⟨23, _⟩ => ⟨S64x276x3072, .f32⟩
  | .hbm, ⟨24, _⟩ => ⟨S64x276x12x256, .f32⟩
  | _, _ => ⟨S64x288x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_c : Ref sig .tc := ⟨.hbm, 10, rfl⟩
abbrev main_v7 : Ref sig .tc := ⟨.hbm, 11, rfl⟩
abbrev main_v8 : Ref sig .tc := ⟨.hbm, 12, rfl⟩
abbrev main_c_0 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩

abbrev nD : Nat := 1
abbrev τ : Topo := Topo.v7x

variable {F : FTy → Type} [FloatOps F]

class Facts₀ : Prop where
  bcast_S276_S276x1_0 : S276.BroadcastsInDim S276x1 (![0] : Fin 1 → Fin S276x1.rank)
  bcast_S12_S1x12_1 : S12.BroadcastsInDim S1x12 (![1] : Fin 1 → Fin S1x12.rank)
  bcast_S276x1_S276x12_0_1 : S276x1.BroadcastsInDim S276x12 (![0, 1] : Fin 2 → Fin S276x12.rank)
  bcast_S1x12_S276x12_0_1 : S1x12.BroadcastsInDim S276x12 (![0, 1] : Fin 2 → Fin S276x12.rank)
  bcast_S_S276x12 : S_.BroadcastsInDim S276x12 (![] : Fin 0 → Fin S276x12.rank)
  bcast_S276x12_S276x12x1_0_1 : S276x12.BroadcastsInDim S276x12x1 (![0, 1] : Fin 2 → Fin S276x12x1.rank)
  shapeCasts_S64x276x12x256_S64x276x3072 : S64x276x12x256.ShapeCasts S64x276x3072
  bcast_S3072_S1x1x3072_2 : S3072.BroadcastsInDim S1x1x3072 (![2] : Fin 1 → Fin S1x1x3072.rank)
  bcast_S1x1x3072_S64x276x3072_0_1_2 : S1x1x3072.BroadcastsInDim S64x276x3072 (![0, 1, 2] : Fin 3 → Fin S64x276x3072.rank)
  shapeCasts_S64x276x3072_S64x276x12x256 : S64x276x3072.ShapeCasts S64x276x12x256
  gather_S64x288x256_S276x12x1_S64x276x12x256_03_1_n_n_1_2_641256_wf : GatherDims.WF S64x288x256 S276x12x1 S64x276x12x256 [0, 3] [1] [] [1] [] 2 ![64, 1, 256]
  dot_S64x276x3072_S3072x3072_S64x276x3072_2_1_01_0_n_n_wf : DotDims.WF S64x276x3072 S3072x3072 S64x276x3072 [2] [1] [0, 1] [0] [] []

variable [Facts₀]

def gather_S64x288x256_S276x12x1_S64x276x12x256_03_1_n_n_1_2_641256 : GatherDims S64x288x256 S276x12x1 S64x276x12x256 where
  offsetDims := [0, 3]
  collapsedSliceDims := [1]
  operandBatchingDims := []
  startIndicesBatchingDims := []
  startIndexMap := [1]
  indexVectorDim := 2
  sliceSizes := ![64, 1, 256]
  wf := gather_S64x288x256_S276x12x1_S64x276x12x256_03_1_n_n_1_2_641256_wf
def dot_S64x276x3072_S3072x3072_S64x276x3072_2_1_01_0_n_n : DotDims S64x276x3072 S3072x3072 S64x276x3072 where
  lhsContracting := [2]
  rhsContracting := [1]
  lhsNonContracting := [0, 1]
  rhsNonContracting := [0]
  lhsBatch := []
  rhsBatch := []
  wf := dot_S64x276x3072_S3072x3072_S64x276x3072_2_1_01_0_n_n_wf

class Facts : Prop extends Facts₀ where

variable [Facts]
-- ==== Proof.Spec.lean ====
/-
  The layer both programs compute, as one function of the three argument arrays.

  The input holds 64 sequences of 288 time steps of 256 features. Window `n` (of 276) of a sequence is its 12
  consecutive steps `n, n+1, …, n+11` laid side by side as 3072 numbers: position `k` of the window is feature
  `k % 256` of step `n + k / 256`. The window is paired with every row of the 3072 × 3072 weight matrix and the
  bias is added:

      out(b, n, o) = Σ_{k < 3072} inp(b, n + k / 256, k % 256) · W(o, k) + bias(o).

  Everything is stated on the extended reals, index by index; the two sides of the certificate are joined by
  re-indexing this one sum, so no entry has to be finite.
-/
import Idealize.ShloMosaic.PureOps.Ideal
import Idealize.ShloMosaic.Lib.ValueIdx

noncomputable section

open scoped BigOperators

namespace Cert.Windows

open Idealize.ShloMosaic Idealize.ShloMosaic.ValueIdx

/-- The input: sequence, time step, feature. -/
abbrev SInp : Shape := ⟨3, ![64, 288, 256]⟩
/-- The weights: output feature, window position. -/
abbrev SWgt : Shape := ⟨2, ![3072, 3072]⟩
/-- The bias: output feature. -/
abbrev SBias : Shape := ⟨1, ![3072]⟩
/-- The result before its last regrouping: sequence, window, output feature. -/
abbrev SOut : Shape := ⟨3, ![64, 276, 3072]⟩

/-- The time step that position `k` of window `n` reads: `n + k / 256`, at most `275 + 11`. -/
def stepOf (n : Fin 276) (k : Fin 3072) : Fin 288 :=
  ⟨n.val + k.val / 256, by have := n.isLt; have := k.isLt; omega⟩

/-- The feature that position `k` of a window reads: `k % 256`. -/
def featOf (k : Fin 3072) : Fin 256 := ⟨k.val % 256, Nat.mod_lt _ (by decide)⟩

theorem stepOf_val (n : Fin 276) (k : Fin 3072) : (stepOf n k).val = n.val + k.val / 256 := rfl
theorem featOf_val (k : Fin 3072) : (featOf k).val = k.val % 256 := rfl

/-- Position `k` of window `n` of sequence `b`. -/
def window (x : FVec Ideal SInp .f32) (b : Fin 64) (n : Fin 276) (k : Fin 3072) : EReal :=
  x (ix3 b (stepOf n k) (featOf k))

/-- One entry of the layer's output. -/
def out (x : FVec Ideal SInp .f32) (w : FVec Ideal SWgt .f32) (bias : FVec Ideal SBias .f32)
    (b : Fin 64) (n : Fin 276) (o : Fin 3072) : EReal :=
  (∑ k : Fin 3072, window x b n k * w (ix2 o k)) + bias (ix1 o)

/-- The layer's output as an array over (sequence, window, output feature). -/
def outArr (x : FVec Ideal SInp .f32) (w : FVec Ideal SWgt .f32) (bias : FVec Ideal SBias .f32) :
    FVec Ideal SOut .f32 :=
  fun i => out x w bias (i 0) (i 1) (i 2)

/-- The kernel works on four sequences at a time and keeps their windows as the rows of one array: row
    `t * 276 + n` is window `n` of the tile's sequence `t`. -/
def rowOf (t : Fin 4) (n : Fin 276) : Fin 1104 :=
  ⟨t.val * 276 + n.val, by have := t.isLt; have := n.isLt; omega⟩

theorem rowOf_val (t : Fin 4) (n : Fin 276) : (rowOf t n).val = t.val * 276 + n.val := rfl

theorem outArr_apply (x : FVec Ideal SInp .f32) (w : FVec Ideal SWgt .f32) (bias : FVec Ideal SBias .f32)
    (b : Fin 64) (n : Fin 276) (o : Fin 3072) :
    outArr x w bias (ix3 b n o) = out x w bias b n o := rfl

end Cert.Windows

end
-- ==== Proof.RefRead.lean ====
/-
  The reference's result before its last regrouping, read at an index: the windows gathered from the input, the
  contraction with the weight rows, and the bias.
-/
import proofs.«122776_j82832739270909_2_alg».proof.Defs
import proofs.«122776_j82832739270909_2_alg».proof.Proof.Gen.ReferenceIdeal.Run
import proofs.«122776_j82832739270909_2_alg».proof.Proof.Gen.ReferenceIdeal.Read
import proofs.«122776_j82832739270909_2_alg».proof.Proof.Spec

noncomputable section

open scoped BigOperators

namespace Cert.ReferenceIdeal.RefValue

open Idealize.ShloMosaic Idealize.ShloMosaic.ValueIdx Cert.ReferenceIdeal Cert.ReferenceIdeal.Read Cert.Windows

/-! ## The start indices: the word of `n + p` -/

/-- A natural below `2 ^ 31`, written as a 32-bit word and read back signed, is itself. -/
theorem toInt_ofNat_small (m : Nat) (hm : m < 2147483648) : (BitVec.ofNat 32 m).toInt = (m : Int) := by
  have hN : (BitVec.ofNat 32 m).toNat = m := by
    rw [BitVec.toNat_ofNat]; exact Nat.mod_eq_of_lt (by omega)
  rw [BitVec.toInt_eq_toNat_of_lt (by rw [hN]; omega), hN]

/-- The wrap of a negative index (add the axis' size 288 when the sum is below zero) never fires on `n + p` with
    `n < 276` and `p < 12`: the sum of the two words is the word of `n + p`, and read signed it is not negative. -/
theorem wrap_word (n p : Nat) (hn : n < 276) (hp : p < 12) :
    Scalar.select (IntOp.cmpi .slt (IntOp.addi (BitVec.ofNat 32 n) (BitVec.ofNat 32 p)) 0#32)
      (IntOp.addi (IntOp.addi (BitVec.ofNat 32 n) (BitVec.ofNat 32 p)) 288#32)
      (IntOp.addi (BitVec.ofNat 32 n) (BitVec.ofNat 32 p)) = BitVec.ofNat 32 (n + p) := by
  have hadd : IntOp.addi (BitVec.ofNat 32 n) (BitVec.ofNat 32 p) = BitVec.ofNat 32 (n + p) :=
    BitVec.ofNat_add_ofNat n p
  rw [hadd]
  have hc : IntOp.cmpi .slt (BitVec.ofNat 32 (n + p)) 0#32 = 0#1 := by
    show BitVec.ofBool ((BitVec.ofNat 32 (n + p)).slt 0#32) = 0#1
    rw [BitVec.slt_eq_decide, toInt_ofNat_small (n + p) (by omega), BitVec.toInt_zero,
      decide_eq_false (by omega)]
    rfl
  rw [hc, select_zero]

/-- The start index of window `n`, step `p`: the word of `n + p`. -/
theorem index_word (n : Fin 276) (p : Fin 12) :
    val_main_v11 (F := Ideal) (ix2 n p) = BitVec.ofNat 32 (n.val + p.val) := by
  have h4 : val_main_v4 (F := Ideal) (ix2 n p) = BitVec.ofNat 32 n.val := by
    rw [val_main_v4_apply, val_main_v1_apply, val_main_v0_apply]
  have h5 : val_main_v5 (F := Ideal) (ix2 n p) = BitVec.ofNat 32 p.val := by
    rw [val_main_v5_apply, val_main_v3_apply, val_main_v2_apply]
  have h6 : val_main_v6 (F := Ideal) (ix2 n p) = IntOp.addi (BitVec.ofNat 32 n.val) (BitVec.ofNat 32 p.val) := by
    rw [val_main_v6_apply, h4, h5]
  have h7 : val_main_v7 (F := Ideal) (ix2 n p) = 0#32 := by
    rw [val_main_v7_apply, val_main_c_apply]
  have h9 : val_main_v9 (F := Ideal) (ix2 n p) = 288#32 := by
    rw [val_main_v9_apply, val_main_c_0_apply]
  rw [val_main_v11_apply, val_main_v8_apply, val_main_v10_apply, h6, h7, h9]
  exact wrap_word n.val p.val n.isLt p.isLt

/-! ## The gather read at an index

The gather's dimension numbers: result axes 0 and 3 are offset axes over the operand's axes 0 and 2 (whole, sizes 64
and 256); operand axis 1 is collapsed (slice size 1) and is the one the start index names; the start indices
`[276, 12, 1]` give the result its axes 1 and 2. So result element `(b, n, p, f)` is the operand at
`(b, clamp (start (n, p, 0)), f)`. -/

local notation "gd" => gather_S64x288x256_S276x12x1_S64x276x12x256_03_1_n_n_1_2_641256

/-- The start-indices index at which result index `(b, n, p, f)` reads its one start index: `(n, p, 0)`. -/
theorem gather_siIdx (b : Fin 64) (n : Fin 276) (p : Fin 12) (f : Fin 256) :
    (gd).siIdx (ix4 b n p f) ⟨List.idxOf (1 : Fin S64x288x256.rank) (gd).startIndexMap,
        List.idxOf_lt_length_iff.2 (List.mem_singleton.mpr rfl)⟩
      = ix3 n p (⟨0, Nat.one_pos⟩ : Fin 1) := by
  funext a; refine Fin.ext ?_
  match a with
  | ⟨0, _⟩ => rfl
  | ⟨1, _⟩ => rfl
  | ⟨2, _⟩ => rfl

/-- THE GATHER READ AT `(b, n, p, f)`: the input at sequence `b`, time step `n + p`, feature `f`. The start index is
    the word of `n + p`, at most 286, so reading it signed and clamping it into `[0, 287]` changes nothing. -/
theorem gather_apply (x0 : (⟨S64x288x256, .f32⟩ : BufTy).Contents (Elt Ideal))
    (b : Fin 64) (n : Fin 276) (p : Fin 12) (f : Fin 256) :
    val_main_v13 (F := Ideal) x0 (ix4 b n p f)
      = x0 (ix3 b (⟨n.val + p.val, by have := n.isLt; have := p.isLt; omega⟩ : Fin 288) f) := by
  unfold val_main_v13 Host.gather
  refine congrArg x0 ?_
  funext a
  refine Fin.ext ?_
  match a with
  | ⟨0, _⟩ =>
    show (gd).start (ix4 b n p f) (val_main_v12 (F := Ideal)) 0 + (gd).batchCoord (ix4 b n p f) 0
      + (gd).offCoord (ix4 b n p f) 0 = b.val
    rw [GatherDims.batchCoord_eq_zero _ _ _ List.not_mem_nil]
    unfold GatherDims.start
    rw [dif_neg (show ¬ (0 : Fin S64x288x256.rank) ∈ (gd).startIndexMap by decide)]
    unfold GatherDims.offCoord
    rw [dif_pos (show (0 : Fin S64x288x256.rank) ∈ (gd).sKept by decide)]
    simp only [Nat.zero_add, Nat.add_zero]
    rfl
  | ⟨1, _⟩ =>
    show (gd).start (ix4 b n p f) (val_main_v12 (F := Ideal)) 1 + (gd).batchCoord (ix4 b n p f) 1
      + (gd).offCoord (ix4 b n p f) 1 = n.val + p.val
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (1 : Fin S64x288x256.rank) ∈ (gd).startIndexMap from List.mem_singleton.mpr rfl)]
    have e : idx_main_v12 (ix3 n p (⟨0, Nat.one_pos⟩ : Fin 1)) = ix2 n p :=
      funext fun a => Fin.ext (by match a with | ⟨0, _⟩ => rfl | ⟨1, _⟩ => rfl)
    rw [gather_siIdx b n p f, val_main_v12_apply, e, index_word,
      toInt_ofNat_small _ (by have := n.isLt; have := p.isLt; omega)]
    show min (Int.toNat ((n.val + p.val : Nat) : Int)) (288 - 1) = n.val + p.val
    have := n.isLt; have := p.isLt; omega
  | ⟨2, _⟩ =>
    show (gd).start (ix4 b n p f) (val_main_v12 (F := Ideal)) 2 + (gd).batchCoord (ix4 b n p f) 2
      + (gd).offCoord (ix4 b n p f) 2 = f.val
    rw [GatherDims.batchCoord_eq_zero _ _ _ List.not_mem_nil]
    unfold GatherDims.start
    rw [dif_neg (show ¬ (2 : Fin S64x288x256.rank) ∈ (gd).startIndexMap by decide)]
    unfold GatherDims.offCoord
    rw [dif_pos (show (2 : Fin S64x288x256.rank) ∈ (gd).sKept by decide)]
    simp only [Nat.zero_add, Nat.add_zero]
    rfl

/-! ## The windows, the contraction and the bias -/

/-- The gathered array regrouped as `[64, 276, 3072]`, read at `(b, n, k)`: position `k` of window `n` of sequence
    `b`. Position `k` of the flattened last axis is step `k / 256` of the window and feature `k % 256`. -/
theorem windows_apply (x0 : (⟨S64x288x256, .f32⟩ : BufTy).Contents (Elt Ideal))
    (b : Fin 64) (n : Fin 276) (k : Fin 3072) :
    val_main_v14 (F := Ideal) x0 (ix3 b n k) = window x0 b n k := by
  have e : idx_main_v14 (ix3 b n k)
      = ix4 b n (⟨k.val / 256, by have := k.isLt; omega⟩ : Fin 12)
          (⟨k.val % 256, Nat.mod_lt _ (by decide)⟩ : Fin 256) :=
    funext fun a => Fin.ext (by
      have hb := b.isLt; have hn := n.isLt; have hk := k.isLt
      match a with
      | ⟨0, _⟩ => show ((b.val * 276 + n.val) * 3072 + k.val) / 847872 = b.val; omega
      | ⟨1, _⟩ => show ((b.val * 276 + n.val) * 3072 + k.val) / 3072 % 276 = n.val; omega
      | ⟨2, _⟩ => show ((b.val * 276 + n.val) * 3072 + k.val) / 256 % 12 = k.val / 256; omega
      | ⟨3, _⟩ => show ((b.val * 276 + n.val) * 3072 + k.val) % 256 = k.val % 256; omega)
  rw [val_main_v14_apply, e, gather_apply]
  rfl

/-- The reference's array before its last regrouping is the layer's output. -/
theorem ref_eq (x0 : (⟨S64x288x256, .f32⟩ : BufTy).Contents (Elt Ideal))
    (x1 : (⟨S3072x3072, .f32⟩ : BufTy).Contents (Elt Ideal)) (x2 : (⟨S3072, .f32⟩ : BufTy).Contents (Elt Ideal)) :
    val_main_v18 (F := Ideal) x0 x1 x2 = outArr x0 x1 x2 := by
  funext i
  obtain ⟨b, n, o, rfl⟩ : ∃ b n o, i = ix3 b n o := ⟨i 0, i 1, i 2, eq_ix3 i⟩
  show _ = out x0 x1 x2 b n o
  unfold out
  rw [val_main_v18_apply, val_main_v15_apply, val_main_v17_apply, val_main_v16_apply, Ideal.addf_def]
  congr 1
  · refine Finset.sum_congr rfl fun k _ => ?_
    have el : lidx_main_v15 (ix3 b n o) k = ix3 b n k :=
      funext fun a => Fin.ext (by match a with | ⟨0, _⟩ => rfl | ⟨1, _⟩ => rfl | ⟨2, _⟩ => rfl)
    have er : ridx_main_v15 (ix3 b n o) k = ix2 o k :=
      funext fun a => Fin.ext (by match a with | ⟨0, _⟩ => rfl | ⟨1, _⟩ => rfl)
    rw [el, er, windows_apply]
  · exact congrArg x2 (funext fun a => Fin.ext (by match a with | ⟨0, _⟩ => rfl))

end Cert.ReferenceIdeal.RefValue

end
-- ==== Proof.BodyValue.lean ====
/-
  The kernel body's stored values, read at an index.
-/
import proofs.«122776_j82832739270909_2_alg».proof.Proof.Gen.KernelIdeal.Skeleton
import proofs.«122776_j82832739270909_2_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.BodyValue

open Idealize.ShloMosaic Idealize.ShloMosaic.ValueIdx Cert.KernelIdeal Cert.KernelIdeal.Gen Cert.Windows

/-- Twelve time-shifted copies of the input tile are laid side by side: a copy, regrouped from
    (sequence, window, feature) to (row, feature), reads at row `t * 276 + n` what the copy holds at (t, n). -/
theorem column_apply (v : Vec Ideal S4x276x256 .f32) (t : Fin 4) (n : Fin 276) (d : Fin 256) :
    shapeCast S1104x256 (shapeCast S1104x256 (truncf (F := Ideal) .bf16 v bitsLt_bf16_f32) shapeCasts_S4x276x256_S1104x256)
      shapeCasts_S1104x256_S1104x256 (ix2 (rowOf t n) d) = v (ix3 t n d) := by
  -- The second regrouping keeps the shape, so it changes nothing.
  rw [shapeCast_self]
  -- The first one keeps the row-major position: (t * 276 + n) * 256 + d on both sides.
  refine (shapeCast_apply _ shapeCasts_S4x276x256_S1104x256 (ix2 (rowOf t n) d) (ix3 t n d) ?_).trans ?_
  · rw [Shape.rowMajor_val_three, Shape.rowMajor_val_two]
    rfl
  · -- Narrowing the format is the identity on the extended reals.
    rfl

/-! Each of the twelve copies is made by the same three steps (narrow the format, regroup to rows, regroup to the same
    shape), so each reads at row `t * 276 + n` what its source holds at (t, n). -/

theorem pay1_apply (v : Vec Ideal S4x276x256 .f32) (t : Fin 4) (n : Fin 276) (d : Fin 256) :
    k0_pay1 (F := Ideal) v (ix2 (rowOf t n) d) = v (ix3 t n d) := column_apply v t n d
theorem pay2_apply (v : Vec Ideal S4x276x256 .f32) (t : Fin 4) (n : Fin 276) (d : Fin 256) :
    k0_pay2 (F := Ideal) v (ix2 (rowOf t n) d) = v (ix3 t n d) := column_apply v t n d
theorem pay4_apply (v : Vec Ideal S4x276x256 .f32) (t : Fin 4) (n : Fin 276) (d : Fin 256) :
    k0_pay4 (F := Ideal) v (ix2 (rowOf t n) d) = v (ix3 t n d) := column_apply v t n d
theorem pay5_apply (v : Vec Ideal S4x276x256 .f32) (t : Fin 4) (n : Fin 276) (d : Fin 256) :
    k0_pay5 (F := Ideal) v (ix2 (rowOf t n) d) = v (ix3 t n d) := column_apply v t n d
theorem pay6_apply (v : Vec Ideal S4x276x256 .f32) (t : Fin 4) (n : Fin 276) (d : Fin 256) :
    k0_pay6 (F := Ideal) v (ix2 (rowOf t n) d) = v (ix3 t n d) := column_apply v t n d
theorem pay7_apply (v : Vec Ideal S4x276x256 .f32) (t : Fin 4) (n : Fin 276) (d : Fin 256) :
    k0_pay7 (F := Ideal) v (ix2 (rowOf t n) d) = v (ix3 t n d) := column_apply v t n d
theorem pay8_apply (v : Vec Ideal S4x276x256 .f32) (t : Fin 4) (n : Fin 276) (d : Fin 256) :
    k0_pay8 (F := Ideal) v (ix2 (rowOf t n) d) = v (ix3 t n d) := column_apply v t n d
theorem pay9_apply (v : Vec Ideal S4x276x256 .f32) (t : Fin 4) (n : Fin 276) (d : Fin 256) :
    k0_pay9 (F := Ideal) v (ix2 (rowOf t n) d) = v (ix3 t n d) := column_apply v t n d
theorem pay10_apply (v : Vec Ideal S4x276x256 .f32) (t : Fin 4) (n : Fin 276) (d : Fin 256) :
    k0_pay10 (F := Ideal) v (ix2 (rowOf t n) d) = v (ix3 t n d) := column_apply v t n d
theorem pay11_apply (v : Vec Ideal S4x276x256 .f32) (t : Fin 4) (n : Fin 276) (d : Fin 256) :
    k0_pay11 (F := Ideal) v (ix2 (rowOf t n) d) = v (ix3 t n d) := column_apply v t n d
theorem pay12_apply (v : Vec Ideal S4x276x256 .f32) (t : Fin 4) (n : Fin 276) (d : Fin 256) :
    k0_pay12 (F := Ideal) v (ix2 (rowOf t n) d) = v (ix3 t n d) := column_apply v t n d
theorem pay13_apply (v : Vec Ideal S4x276x256 .f32) (t : Fin 4) (n : Fin 276) (d : Fin 256) :
    k0_pay13 (F := Ideal) v (ix2 (rowOf t n) d) = v (ix3 t n d) := column_apply v t n d

/-- The left operand of the product at output (r, o) and contraction position q: row r is kept. -/
theorem lhs_row (j : S1104x512.Idx) (q : dot_S1104x3072_S512x3072_S1104x512_1_1_0_0_n_n.contr.Idx) :
    (dot_S1104x3072_S512x3072_S1104x512_1_1_0_0_n_n.lhsIdx j q 0).val = (j 0).val := by
  unfold DotDims.lhsIdx
  rw [dif_neg (show ¬(0 : Fin S1104x3072.rank) ∈ dot_S1104x3072_S512x3072_S1104x512_1_1_0_0_n_n.lhsBatch by decide),
    dif_pos (show (0 : Fin S1104x3072.rank) ∈ dot_S1104x3072_S512x3072_S1104x512_1_1_0_0_n_n.lhsNonContracting by decide)]
  rfl

/-- … and its column is the contraction position. -/
theorem lhs_col (j : S1104x512.Idx) (q : dot_S1104x3072_S512x3072_S1104x512_1_1_0_0_n_n.contr.Idx) :
    (dot_S1104x3072_S512x3072_S1104x512_1_1_0_0_n_n.lhsIdx j q 1).val = (q ⟨0, by decide⟩).val :=
  dot_S1104x3072_S512x3072_S1104x512_1_1_0_0_n_n.lhsIdx_val_of_single rfl j q

/-- The right operand at output (r, o) and contraction position q: its row is the output column o. -/
theorem rhs_row (j : S1104x512.Idx) (q : dot_S1104x3072_S512x3072_S1104x512_1_1_0_0_n_n.contr.Idx) :
    (dot_S1104x3072_S512x3072_S1104x512_1_1_0_0_n_n.rhsIdx j q 0).val = (j 1).val := by
  unfold DotDims.rhsIdx
  rw [dif_neg (show ¬(0 : Fin S512x3072.rank) ∈ dot_S1104x3072_S512x3072_S1104x512_1_1_0_0_n_n.rhsBatch by decide),
    dif_pos (show (0 : Fin S512x3072.rank) ∈ dot_S1104x3072_S512x3072_S1104x512_1_1_0_0_n_n.rhsNonContracting by decide)]
  rfl

/-- … and its column is the contraction position. -/
theorem rhs_col (j : S1104x512.Idx) (q : dot_S1104x3072_S512x3072_S1104x512_1_1_0_0_n_n.contr.Idx) :
    (dot_S1104x3072_S512x3072_S1104x512_1_1_0_0_n_n.rhsIdx j q 1).val = (q ⟨0, by decide⟩).val :=
  dot_S1104x3072_S512x3072_S1104x512_1_1_0_0_n_n.rhsIdx_val_of_single rfl j q

/-- The product into a zero accumulator, read at (r, o): the sum over the 3072 columns of row r of the left operand
    times row o of the right one. -/
theorem matmul_zero_apply (a : FVec Ideal S1104x3072 .bf16) (w : FVec Ideal S512x3072 .bf16) (r : Fin 1104) (o : Fin 512) :
    FloatOps.matmul dot_S1104x3072_S512x3072_S1104x512_1_1_0_0_n_n none a w (constant (F := Ideal) S1104x512 .f32 0x00000000#32) (ix2 r o)
      = ∑ k : Fin 3072, a (ix2 r k) * w (ix2 o k) := by
  rw [Ideal.matmul_constant_zero_apply, ← Equiv.sum_comp (contrEquiv1 dot_S1104x3072_S512x3072_S1104x512_1_1_0_0_n_n 3072 rfl rfl).symm]
  refine Finset.sum_congr rfl fun k _ => ?_
  have hk := contrEquiv1_symm_val dot_S1104x3072_S512x3072_S1104x512_1_1_0_0_n_n 3072 rfl rfl k
  have el : dot_S1104x3072_S512x3072_S1104x512_1_1_0_0_n_n.lhsIdx (ix2 r o) ((contrEquiv1 dot_S1104x3072_S512x3072_S1104x512_1_1_0_0_n_n 3072 rfl rfl).symm k) = ix2 r k :=
    funext fun ax => Fin.ext (by
      match ax with
      | ⟨0, _⟩ => exact lhs_row _ _
      | ⟨1, _⟩ => exact (lhs_col _ _).trans hk)
  have er : dot_S1104x3072_S512x3072_S1104x512_1_1_0_0_n_n.rhsIdx (ix2 r o) ((contrEquiv1 dot_S1104x3072_S512x3072_S1104x512_1_1_0_0_n_n 3072 rfl rfl).symm k) = ix2 o k :=
    funext fun ax => Fin.ext (by
      match ax with
      | ⟨0, _⟩ => exact rhs_row _ _
      | ⟨1, _⟩ => exact (rhs_col _ _).trans hk)
  rw [el, er]

/-- The stored output tile: row `t * 276 + n` of the work array against row `o` of the weight slice, plus the
    bias slice's entry `o`. -/
theorem pay3_apply (v6 : Vec Ideal S512x3072 .bf16) (v9 : Vec Ideal S1x512 .f32) (v11 : Vec Ideal S1104x3072 .bf16)
    (t : Fin 4) (n : Fin 276) (o : Fin 512) :
    k0_pay3 (F := Ideal) v6 v9 v11 (ix3 t n o)
      = (∑ k : Fin 3072, v11 (ix2 (rowOf t n) k) * v6 (ix2 o k)) + v9 (ix2 (0 : Fin 1) o) := by
  unfold k0_pay3
  -- The last regrouping keeps the row-major position: (t * 276 + n) * 512 + o on both sides.
  refine (shapeCast_apply _ shapeCasts_S1104x512_S4x276x512 (ix3 t n o) (ix2 (rowOf t n) o) ?_).trans ?_
  · rw [Shape.rowMajor_val_three, Shape.rowMajor_val_two]
    rfl
  -- The two regroupings that keep the shape change nothing.
  rw [shapeCast_self, shapeCast_self]
  -- A sum of two arrays at an index is the sum of the entries.
  refine (addf_apply _ _ _).trans ?_
  simp only [matmul]
  rw [matmul_zero_apply, broadcastTo_1b_ab_apply]

end Cert.KernelIdeal.BodyValue

end
-- ==== Proof.TileValue.lean ====
/-
  What the kernel's body leaves in its work array and in its output tile.

  The body works on a tile of four sequences. When a new tile starts it fills the work array [1104, 3072]: twelve
  stores, store `p` writing columns `256 p … 256 p + 255` with the tile's time steps `p … p + 275` regrouped to rows,
  so that row `t * 276 + n`, column `k` holds the tile's entry (t, n + k / 256, k % 256): window `n` of sequence `t`
  laid out flat. Every point then multiplies the work array by a slice of 512 weight rows and adds the bias slice.
  Here the twelve stores are read back as that one function of the tile, and the output tile as the product of it.
-/
import proofs.«122776_j82832739270909_2_alg».proof.Proof.Gen.KernelIdeal.Frame
import proofs.«122776_j82832739270909_2_alg».proof.Proof.Spec
import proofs.«122776_j82832739270909_2_alg».proof.Proof.BodyValue
import Idealize.ShloMosaic.Lib.Pipeline.Value
import Idealize.ShloMosaic.Lib.WholeRead
import Idealize.ShloMosaic.Lib.Tactic

noncomputable section

open scoped BigOperators

namespace Cert.KernelIdeal.TileValue

open Idealize.ShloMosaic Idealize.ShloMosaic.TcCoe Idealize.ShloMosaic.Tactic Idealize.ShloMosaic.ValueIdx
open Idealize.SL Idealize.SL.Sem
open Cert.KernelIdeal Cert.KernelIdeal.Gen Cert.KernelIdeal.BodyValue Cert.Windows

/-- The work array of a tile: row `r`, column `k` holds the tile's entry at sequence `r / 276`, time step
    `r % 276 + k / 256`, feature `k % 256`. -/
def workArray (x0 : Vec Ideal S4x288x256 .f32) : Vec Ideal S1104x3072 .bf16 := fun y =>
  x0 (ix3 (⟨(y 0).val / 276, by have h : (y 0).val < 1104 := (y 0).isLt; omega⟩ : Fin 4)
    (⟨(y 0).val % 276 + (y 1).val / 256, by have h : (y 1).val < 3072 := (y 1).isLt; omega⟩ : Fin 288)
    (⟨(y 1).val % 256, Nat.mod_lt _ (by decide)⟩ : Fin 256))

/-- At row `t * 276 + n` it holds window `n` of the tile's sequence `t`, laid out flat. -/
theorem workArray_apply (x0 : Vec Ideal S4x288x256 .f32) (t : Fin 4) (n : Fin 276) (k : Fin 3072) :
    workArray x0 (ix2 (rowOf t n) k) = x0 (ix3 t (stepOf n k) (featOf k)) := by
  unfold workArray
  refine congrArg x0 (funext fun a => Fin.ext ?_)
  have ht := t.isLt; have hn := n.isLt
  match a with
  | ⟨0, _⟩ => show (t.val * 276 + n.val) / 276 = t.val; omega
  | ⟨1, _⟩ => show (t.val * 276 + n.val) % 276 + k.val / 256 = n.val + k.val / 256; omega
  | ⟨2, _⟩ => rfl

/-- One column store agrees with the work array: the store at columns `256 p …` of the tile's time steps `p …`,
    regrouped to rows, holds at its (row, feature) what the work array holds at (row, 256 p + feature). `pay` is the
    store's value as a function of the loaded copy; all twelve read alike (`hpay`). -/
theorem column_piece (arg2 : Memref sig .tc .vmem S4x288x256 .f32) (harg2 : arg2.IsWhole) (x0 : Vec Ideal S4x288x256 .f32)
    (p q : Nat) (hq : q = 256 * p) (hp : p < 12)
    (inbL : ∀ a, (![0, p, 0] : Fin 3 → Nat) a + S4x276x256.size a ≤ S4x288x256.size a)
    (inbS : ∀ a, (![0, q] : Fin 2 → Nat) a + S1104x256.size a ≤ S1104x3072.size a)
    (pay : Vec Ideal S4x276x256 .f32 → FVec Ideal S1104x256 .bf16)
    (hpay : ∀ (v : Vec Ideal S4x276x256 .f32) (t : Fin 4) (n : Fin 276) (d : Fin 256), pay v (ix2 (rowOf t n) d) = v (ix3 t n d))
    (x : (Rect.unit (s := S1104x3072) ![0, q] S1104x256.size inbS).shape.Idx) :
    pay (View.readAt (Elt Ideal) arg2.view (Rect.unit (s := S4x288x256) ![0, p, 0] S4x276x256.size inbL).toLoadRect (harg2.unread x0)) x
      = workArray x0 ((Rect.unit (s := S1104x3072) ![0, q] S1104x256.size inbS).emb x) := by
  subst hq
  have hr : (x 0).val < 1104 := (x 0).isLt
  have hd : (x 1).val < 256 := (x 1).isLt
  have ex : x = ix2 (rowOf (⟨(x 0).val / 276, by omega⟩ : Fin 4) (⟨(x 0).val % 276, Nat.mod_lt _ (by decide)⟩ : Fin 276))
      (⟨(x 1).val, hd⟩ : Fin 256) := by
    funext a
    match a with
    | ⟨0, _⟩ => exact Fin.ext (by show (x 0).val = (x 0).val / 276 * 276 + (x 0).val % 276; omega)
    | ⟨1, _⟩ => rfl
  rw [ex, hpay, harg2.readAt_unread]
  unfold workArray
  refine congrArg x0 (funext fun a => Fin.ext ?_)
  match a with
  | ⟨0, _⟩ =>
    show 0 + 1 * ((x 0).val / 276) = (0 + 1 * ((x 0).val / 276 * 276 + (x 0).val % 276)) / 276
    omega
  | ⟨1, _⟩ =>
    show p + 1 * ((x 0).val % 276) = (0 + 1 * ((x 0).val / 276 * 276 + (x 0).val % 276)) % 276 + (256 * p + 1 * (x 1).val) / 256
    omega
  | ⟨2, _⟩ =>
    show 0 + 1 * (x 1).val = (256 * p + 1 * (x 1).val) % 256
    omega

/-- The twelve column stores of a new tile, last first. -/
def columns (arg2 : Memref sig .tc .vmem S4x288x256 .f32) (harg2 : arg2.IsWhole) (x0 : Vec Ideal S4x288x256 .f32) :
    List (View.Piece (Elt Ideal) S1104x3072 .bf16) :=
  [
    ⟨Rect.unit (s := S1104x3072) ![0, 2816] S1104x256.size inb_S1104x3072_S1104x256_0_2816,
      k0_pay2 (F := Ideal) (View.readAt (Elt Ideal) arg2.view (Rect.unit (s := S4x288x256) ![0, 11, 0] S4x276x256.size inb_S4x288x256_S4x276x256_0_11_0).toLoadRect (harg2.unread x0))⟩,
    ⟨Rect.unit (s := S1104x3072) ![0, 2560] S1104x256.size inb_S1104x3072_S1104x256_0_2560,
      k0_pay1 (F := Ideal) (View.readAt (Elt Ideal) arg2.view (Rect.unit (s := S4x288x256) ![0, 10, 0] S4x276x256.size inb_S4x288x256_S4x276x256_0_10_0).toLoadRect (harg2.unread x0))⟩,
    ⟨Rect.unit (s := S1104x3072) ![0, 2304] S1104x256.size inb_S1104x3072_S1104x256_0_2304,
      k0_pay13 (F := Ideal) (View.readAt (Elt Ideal) arg2.view (Rect.unit (s := S4x288x256) ![0, 9, 0] S4x276x256.size inb_S4x288x256_S4x276x256_0_9_0).toLoadRect (harg2.unread x0))⟩,
    ⟨Rect.unit (s := S1104x3072) ![0, 2048] S1104x256.size inb_S1104x3072_S1104x256_0_2048,
      k0_pay12 (F := Ideal) (View.readAt (Elt Ideal) arg2.view (Rect.unit (s := S4x288x256) ![0, 8, 0] S4x276x256.size inb_S4x288x256_S4x276x256_0_8_0).toLoadRect (harg2.unread x0))⟩,
    ⟨Rect.unit (s := S1104x3072) ![0, 1792] S1104x256.size inb_S1104x3072_S1104x256_0_1792,
      k0_pay11 (F := Ideal) (View.readAt (Elt Ideal) arg2.view (Rect.unit (s := S4x288x256) ![0, 7, 0] S4x276x256.size inb_S4x288x256_S4x276x256_0_7_0).toLoadRect (harg2.unread x0))⟩,
    ⟨Rect.unit (s := S1104x3072) ![0, 1536] S1104x256.size inb_S1104x3072_S1104x256_0_1536,
      k0_pay10 (F := Ideal) (View.readAt (Elt Ideal) arg2.view (Rect.unit (s := S4x288x256) ![0, 6, 0] S4x276x256.size inb_S4x288x256_S4x276x256_0_6_0).toLoadRect (harg2.unread x0))⟩,
    ⟨Rect.unit (s := S1104x3072) ![0, 1280] S1104x256.size inb_S1104x3072_S1104x256_0_1280,
      k0_pay9 (F := Ideal) (View.readAt (Elt Ideal) arg2.view (Rect.unit (s := S4x288x256) ![0, 5, 0] S4x276x256.size inb_S4x288x256_S4x276x256_0_5_0).toLoadRect (harg2.unread x0))⟩,
    ⟨Rect.unit (s := S1104x3072) ![0, 1024] S1104x256.size inb_S1104x3072_S1104x256_0_1024,
      k0_pay8 (F := Ideal) (View.readAt (Elt Ideal) arg2.view (Rect.unit (s := S4x288x256) ![0, 4, 0] S4x276x256.size inb_S4x288x256_S4x276x256_0_4_0).toLoadRect (harg2.unread x0))⟩,
    ⟨Rect.unit (s := S1104x3072) ![0, 768] S1104x256.size inb_S1104x3072_S1104x256_0_768,
      k0_pay7 (F := Ideal) (View.readAt (Elt Ideal) arg2.view (Rect.unit (s := S4x288x256) ![0, 3, 0] S4x276x256.size inb_S4x288x256_S4x276x256_0_3_0).toLoadRect (harg2.unread x0))⟩,
    ⟨Rect.unit (s := S1104x3072) ![0, 512] S1104x256.size inb_S1104x3072_S1104x256_0_512,
      k0_pay6 (F := Ideal) (View.readAt (Elt Ideal) arg2.view (Rect.unit (s := S4x288x256) ![0, 2, 0] S4x276x256.size inb_S4x288x256_S4x276x256_0_2_0).toLoadRect (harg2.unread x0))⟩,
    ⟨Rect.unit (s := S1104x3072) ![0, 256] S1104x256.size inb_S1104x3072_S1104x256_0_256,
      k0_pay5 (F := Ideal) (View.readAt (Elt Ideal) arg2.view (Rect.unit (s := S4x288x256) ![0, 1, 0] S4x276x256.size inb_S4x288x256_S4x276x256_0_1_0).toLoadRect (harg2.unread x0))⟩,
    ⟨Rect.unit (s := S1104x3072) ![0, 0] S1104x256.size inb_S1104x3072_S1104x256_0_0,
      k0_pay4 (F := Ideal) (View.readAt (Elt Ideal) arg2.view (Rect.unit (s := S4x288x256) ![0, 0, 0] S4x276x256.size inb_S4x288x256_S4x276x256_0_0_0).toLoadRect (harg2.unread x0))⟩ ]

/-- Each of them holds its part of the work array. -/
theorem columns_pieces (arg2 : Memref sig .tc .vmem S4x288x256 .f32) (harg2 : arg2.IsWhole) (x0 : Vec Ideal S4x288x256 .f32) :
    ∀ pc ∈ columns arg2 harg2 x0, ∀ x : pc.1.shape.Idx, pc.2 x = workArray x0 (pc.1.emb x) := by
  intro pc hpc
  unfold columns at hpc
  simp only [List.mem_cons, List.not_mem_nil, or_false] at hpc
  rcases hpc with rfl | rfl | rfl | rfl | rfl | rfl | rfl | rfl | rfl | rfl | rfl | rfl
  · exact fun x => column_piece arg2 harg2 x0 11 2816 rfl (by decide) inb_S4x288x256_S4x276x256_0_11_0 inb_S1104x3072_S1104x256_0_2816 k0_pay2 pay2_apply x
  · exact fun x => column_piece arg2 harg2 x0 10 2560 rfl (by decide) inb_S4x288x256_S4x276x256_0_10_0 inb_S1104x3072_S1104x256_0_2560 k0_pay1 pay1_apply x
  · exact fun x => column_piece arg2 harg2 x0 9 2304 rfl (by decide) inb_S4x288x256_S4x276x256_0_9_0 inb_S1104x3072_S1104x256_0_2304 k0_pay13 pay13_apply x
  · exact fun x => column_piece arg2 harg2 x0 8 2048 rfl (by decide) inb_S4x288x256_S4x276x256_0_8_0 inb_S1104x3072_S1104x256_0_2048 k0_pay12 pay12_apply x
  · exact fun x => column_piece arg2 harg2 x0 7 1792 rfl (by decide) inb_S4x288x256_S4x276x256_0_7_0 inb_S1104x3072_S1104x256_0_1792 k0_pay11 pay11_apply x
  · exact fun x => column_piece arg2 harg2 x0 6 1536 rfl (by decide) inb_S4x288x256_S4x276x256_0_6_0 inb_S1104x3072_S1104x256_0_1536 k0_pay10 pay10_apply x
  · exact fun x => column_piece arg2 harg2 x0 5 1280 rfl (by decide) inb_S4x288x256_S4x276x256_0_5_0 inb_S1104x3072_S1104x256_0_1280 k0_pay9 pay9_apply x
  · exact fun x => column_piece arg2 harg2 x0 4 1024 rfl (by decide) inb_S4x288x256_S4x276x256_0_4_0 inb_S1104x3072_S1104x256_0_1024 k0_pay8 pay8_apply x
  · exact fun x => column_piece arg2 harg2 x0 3 768 rfl (by decide) inb_S4x288x256_S4x276x256_0_3_0 inb_S1104x3072_S1104x256_0_768 k0_pay7 pay7_apply x
  · exact fun x => column_piece arg2 harg2 x0 2 512 rfl (by decide) inb_S4x288x256_S4x276x256_0_2_0 inb_S1104x3072_S1104x256_0_512 k0_pay6 pay6_apply x
  · exact fun x => column_piece arg2 harg2 x0 1 256 rfl (by decide) inb_S4x288x256_S4x276x256_0_1_0 inb_S1104x3072_S1104x256_0_256 k0_pay5 pay5_apply x
  · exact fun x => column_piece arg2 harg2 x0 0 0 rfl (by decide) inb_S4x288x256_S4x276x256_0_0_0 inb_S1104x3072_S1104x256_0_0 k0_pay4 pay4_apply x

/-- Together they fill the array: twelve blocks of 256 columns side by side. -/
theorem columns_cover (arg2 : Memref sig .tc .vmem S4x288x256 .f32) (harg2 : arg2.IsWhole) (x0 : Vec Ideal S4x288x256 .f32)
    (y : S1104x3072.Idx) : ∃ pc ∈ columns arg2 harg2 x0, y ∈ pc.1.set :=
  View.cover_of_tiledL (columns arg2 harg2 x0) S1104x256.size (by unfold columns; sl_kernel_rfl) y

/-- So, read back, the twelve stores are the work array. -/
theorem canon_columns (arg2 : Memref sig .tc .vmem S4x288x256 .f32) (harg2 : arg2.IsWhole) (x0 : Vec Ideal S4x288x256 .f32) :
    View.canon (columns arg2 harg2 x0) = workArray x0 :=
  funext fun y => View.canon_apply_of_pieces (workArray x0) _ (columns_pieces arg2 harg2 x0) y (columns_cover arg2 harg2 x0 y)

end Cert.KernelIdeal.TileValue

end
-- ==== Proof.CaseValue.lean ====
/-
  The two cases of the kernel's body, as values.

  At a point that starts a new tile (output-feature block 0) the body fills the work array from the input tile and
  then uses it; at every other point it uses the work array the point before left. In both cases the output tile is
  the work array times the point's 512 weight rows plus the point's 512 bias entries.
-/
import proofs.«122776_j82832739270909_2_alg».proof.Proof.TileValue

noncomputable section

open scoped BigOperators

namespace Cert.KernelIdeal.CaseValue

open Idealize.ShloMosaic Idealize.ShloMosaic.TcCoe Idealize.ShloMosaic.Tactic Idealize.ShloMosaic.ValueIdx
open Idealize.SL Idealize.SL.Sem
open Cert.KernelIdeal Cert.KernelIdeal.Gen Cert.KernelIdeal.BodyValue Cert.KernelIdeal.TileValue Cert.Windows

theorem hz2 : (![0, 0] : Fin 2 → Nat) = fun _ => 0 := funext fun a => by fin_cases a <;> rfl
theorem hz3 : (![0, 0, 0] : Fin 3 → Nat) = fun _ => 0 := funext fun a => by fin_cases a <;> rfl

/-- The 512 weight rows a point uses: rows `512 j …` of the weight matrix, `j` the point's output-feature block. -/
def weightRows (i : grid0.Coords) (x1 : Vec Ideal S3072x3072 .bf16) : Vec Ideal S512x3072 .bf16 :=
  View.ld x1 (Rect.unit (s := S3072x3072) (k0_off1 i) S512x3072.size (k0_off1_inb i))

/-- The 512 bias entries a point uses. -/
def biasEntries (i : grid0.Coords) (x2 : Vec Ideal S1x3072 .f32) : Vec Ideal S1x512 .f32 :=
  View.ld x2 (Rect.unit (s := S1x3072) (k0_off2 i) S1x512.size (k0_off2_inb i))

/-- A point that starts a new tile leaves the tile's work array in the scratch. -/
theorem scratch_new (c : Dev nD) (i : grid0.Coords) (arg2 : Memref sig .tc .vmem S4x288x256 .f32) (harg2 : arg2.IsWhole) (arg3 : Memref sig .tc .vmem S3072x3072 .bf16) (harg3 : arg3.IsWhole) (arg4 : Memref sig .tc .vmem S1x3072 .f32) (harg4 : arg4.IsWhole) (arg5 : Memref sig .tc .vmem S4x276x512 .f32) (harg5 : arg5.IsWhole) (arg6 : Memref sig .tc .vmem S1104x3072 .bf16) (harg6 : arg6.IsWhole) (hc0 : cond0_0 i)
    (x0 : Vec Ideal S4x288x256 .f32) (x1 : Vec Ideal S3072x3072 .bf16) (x2 : Vec Ideal S1x3072 .f32) :
    sout0_A_0 (F := Ideal) c i arg2 harg2 arg3 harg3 arg4 harg4 arg5 harg5 arg6 harg6 hc0 x0 x1 x2 = workArray x0 := by
  unfold sout0_A_0
  rw [View.read_writes_eq_canon _ _ _ (scover0_A_0 c i arg2 harg2 arg3 harg3 arg4 harg4 arg5 harg5 arg6 harg6 hc0 x0 x1 x2)]
  unfold kernelRun0_A
  dsimp only
  sl_unfold_words
  exact canon_columns arg2 harg2 x0

/-- What such a point then loads back from the scratch (all of it, after its twelve stores) is the work array. -/
theorem work_new (c : Dev nD) (arg2 : Memref sig .tc .vmem S4x288x256 .f32) (harg2 : arg2.IsWhole)
    (arg6 : Memref sig .tc .vmem S1104x3072 .bf16) (x0 : Vec Ideal S4x288x256 .f32) :
    kernelRun0_A.sl.v11 (F := Ideal) c arg2 harg2 arg6 x0 = workArray x0 := by
  sl_unfold_words
  show arg6.view.readCov (columns arg2 harg2 x0)
    (Rect.unit (s := S1104x3072) ![0, 0] S1104x3072.size inb_S1104x3072_S1104x3072_0_0).toLoadRect = _
  rw [View.readCov_eq_canon_ld _ _ _ (columns_cover arg2 harg2 x0), canon_columns,
    View.ld_unit_zero (S := S1104x3072) hz2]

/-- The output tile of a point that starts a new tile. -/
theorem out_new (c : Dev nD) (i : grid0.Coords) (arg2 : Memref sig .tc .vmem S4x288x256 .f32) (harg2 : arg2.IsWhole) (arg3 : Memref sig .tc .vmem S3072x3072 .bf16) (harg3 : arg3.IsWhole) (arg4 : Memref sig .tc .vmem S1x3072 .f32) (harg4 : arg4.IsWhole) (arg5 : Memref sig .tc .vmem S4x276x512 .f32) (harg5 : arg5.IsWhole) (arg6 : Memref sig .tc .vmem S1104x3072 .bf16) (harg6 : arg6.IsWhole) (hc0 : cond0_0 i)
    (x0 : Vec Ideal S4x288x256 .f32) (x1 : Vec Ideal S3072x3072 .bf16) (x2 : Vec Ideal S1x3072 .f32) :
    out0_A_3 (F := Ideal) c i arg2 harg2 arg3 harg3 arg4 harg4 arg5 harg5 arg6 harg6 hc0 x0 x1 x2
      = k0_pay3 (F := Ideal) (weightRows i x1) (biasEntries i x2) (workArray x0) := by
  unfold out0_A_3
  rw [View.read_writes_eq_canon _ _ _ (cover0_A_3 c i arg2 harg2 arg3 harg3 arg4 harg4 arg5 harg5 arg6 harg6 hc0 x0 x1 x2)]
  unfold kernelRun0_A
  dsimp only
  rw [View.canon_unit_zero hz3, work_new]
  simp only [View.readAt_eq_ld, harg3.read_unread, harg4.read_unread]
  rfl

/-- The output tile of any other point: the same product, over the work array `xs0` the point before left. -/
theorem out_old (c : Dev nD) (i : grid0.Coords) (arg2 : Memref sig .tc .vmem S4x288x256 .f32) (harg2 : arg2.IsWhole) (arg3 : Memref sig .tc .vmem S3072x3072 .bf16) (harg3 : arg3.IsWhole) (arg4 : Memref sig .tc .vmem S1x3072 .f32) (harg4 : arg4.IsWhole) (arg5 : Memref sig .tc .vmem S4x276x512 .f32) (harg5 : arg5.IsWhole) (arg6 : Memref sig .tc .vmem S1104x3072 .bf16) (harg6 : arg6.IsWhole) (hc0 : ¬cond0_0 i)
    (x0 : Vec Ideal S4x288x256 .f32) (x1 : Vec Ideal S3072x3072 .bf16) (x2 : Vec Ideal S1x3072 .f32)
    (xs0 : Vec Ideal S1104x3072 .bf16) :
    out0_B_3 (F := Ideal) c i arg2 harg2 arg3 harg3 arg4 harg4 arg5 harg5 arg6 harg6 hc0 x0 x1 x2 xs0
      = k0_pay3 (F := Ideal) (weightRows i x1) (biasEntries i x2) xs0 := by
  unfold out0_B_3
  rw [View.read_writes_eq_canon _ _ _ (cover0_B_3 c i arg2 harg2 arg3 harg3 arg4 harg4 arg5 harg5 arg6 harg6 hc0 x0 x1 x2 xs0)]
  unfold kernelRun0_B
  dsimp only
  rw [View.canon_unit_zero hz3]
  simp only [View.readAt_eq_ld, harg3.read_unread, harg4.read_unread, harg6.read_unread,
    View.ld_unit_zero (S := S1104x3072) hz2]
  rfl

/-- The output tile over a tile's work array, at (sequence `t`, window `n`, output feature `o` of the block): the
    window's entries against weight row `o` of the point's rows, plus bias entry `o` of the point's entries. -/
theorem tile_apply (i : grid0.Coords) (x0 : Vec Ideal S4x288x256 .f32) (x1 : Vec Ideal S3072x3072 .bf16)
    (x2 : Vec Ideal S1x3072 .f32) (t : Fin 4) (n : Fin 276) (o : Fin 512) :
    k0_pay3 (F := Ideal) (weightRows i x1) (biasEntries i x2) (workArray x0) (ix3 t n o)
      = (∑ k : Fin 3072, x0 (ix3 t (stepOf n k) (featOf k)) * weightRows i x1 (ix2 o k))
        + biasEntries i x2 (ix2 (0 : Fin 1) o) := by
  rw [pay3_apply]
  refine congrArg (· + _) (Finset.sum_congr rfl fun k _ => ?_)
  rw [workArray_apply]

end Cert.KernelIdeal.CaseValue

end
-- ==== Proof.GridValue.lean ====
/-
  The kernel over its grid: what each point writes back.

  The grid has 16 × 6 points, point `t` handling input tile `t / 6` (sequences `4 (t / 6) … 4 (t / 6) + 3`) and
  output-feature block `t % 6` (features `512 (t % 6) …`); the points run in order, so the six points of a tile are
  consecutive and the first of them (`t % 6 = 0`) fills the work array the other five reuse. By induction on the
  point the scratch holds, after point `t`, the work array of tile `t / 6`; so every point's output tile is that
  work array times its weight rows plus its bias entries.
-/
import proofs.«122776_j82832739270909_2_alg».proof.Proof.CaseValue

noncomputable section

open scoped BigOperators

namespace Cert.KernelIdeal.GridValue

open Idealize.ShloMosaic Idealize.ShloMosaic.TcCoe Idealize.ShloMosaic.Tactic Idealize.ShloMosaic.ValueIdx
open Idealize.SL Idealize.SL.Sem
open Idealize.ShloMosaic.Pipeline (Dat)
open Cert.KernelIdeal Cert.KernelIdeal.Gen Cert.KernelIdeal.BodyValue Cert.KernelIdeal.TileValue
open Cert.KernelIdeal.CaseValue Cert.Windows

variable (m : (ℓ : Loc nD τ sig) → Buf (Elt Ideal) ℓ)

/-- The printed index maps and slice offsets, decided once over the grid: point `t` reads input tile `t / 6`, the
    whole weight matrix and the whole bias row, writes output block (`t / 6`, 0, `t % 6`), and slices the weights
    and the bias at `512 (t % 6)`. -/
theorem idx_facts : ∀ t : Fin cfg0.N,
    win0_0.index t (0 : Fin 3) = t.val / 6 ∧ win0_0.index t (1 : Fin 3) = 0 ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 3) = t.val / 6 ∧ win0_3.index t (1 : Fin 3) = 0 ∧ win0_3.index t (2 : Fin 3) = t.val % 6
    ∧ k0_off1 (grid0.coords t) (0 : Fin 2) = 512 * (t.val % 6) ∧ k0_off1 (grid0.coords t) (1 : Fin 2) = 0
    ∧ k0_off2 (grid0.coords t) (0 : Fin 2) = 0 ∧ k0_off2 (grid0.coords t) (1 : Fin 2) = 512 * (t.val % 6) :=
  (by decide +kernel : ∀ t : Fin grid0.N, _)

/-- The first point of the tile that point `n` belongs to. -/
def tileStart (n : ℕ) (h : n < cfg0.N) : Fin cfg0.N := ⟨n - n % 6, Nat.lt_of_le_of_lt (Nat.sub_le _ _) h⟩

/-- After point `n` the scratch holds the work array of the tile point `n` belongs to. -/
theorem scratch_at (c : Dev nD) :
    ∀ (n : ℕ) (h : n < cfg0.N), (outsAt0 m c n h).2 = workArray (iblk m c 0 (tileStart n h))
  | 0, h => by
    rw [outsAt0_A m c ⟨0, h⟩ rfl]
    dsimp only
    exact scratch_new c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) (ms0_3 ⟨0, h⟩) (hs0_3 ⟨0, h⟩) scM0_0 (Memref.isWhole_whole _)
      ((hcond0_0 ⟨0, h⟩).mpr rfl) (iblk m c 0 ⟨0, h⟩) (iblk m c 1 ⟨0, h⟩) (iblk m c 2 ⟨0, h⟩)
  | n + 1, h => by
    by_cases h0 : (n + 1) % 6 = 0
    · rw [outsAt0_A m c ⟨n + 1, h⟩ h0]
      dsimp only
      refine (scratch_new c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) scM0_0 (Memref.isWhole_whole _)
        ((hcond0_0 ⟨n + 1, h⟩).mpr h0) (iblk m c 0 ⟨n + 1, h⟩) (iblk m c 1 ⟨n + 1, h⟩) (iblk m c 2 ⟨n + 1, h⟩)).trans ?_
      exact congrArg (fun s => workArray (iblk m c 0 s)) (Fin.ext (by show n + 1 = n + 1 - (n + 1) % 6; omega))
    · rw [outsAt0_B m c ⟨n + 1, h⟩ h0]
      dsimp only
      unfold sout0_B_0
      show (outsAt0 m c n (Nat.lt_of_succ_lt h)).2 = _
      rw [scratch_at c n (Nat.lt_of_succ_lt h)]
      exact congrArg (fun s => workArray (iblk m c 0 s)) (Fin.ext (by show n - n % 6 = n + 1 - (n + 1) % 6; omega))

/-- So the output tile of every point is the tile's work array times the point's weight rows plus its bias
    entries. -/
theorem out_at (c : Dev nD) (t : Fin cfg0.N) :
    (outsAt0 m c t.val t.isLt).1
      = k0_pay3 (F := Ideal) (weightRows (grid0.coords t) (iblk m c 1 t)) (biasEntries (grid0.coords t) (iblk m c 2 t))
          (workArray (iblk m c 0 (tileStart t.val t.isLt))) := by
  by_cases h0 : t.val % 6 = 0
  · rw [outsAt0_A m c t h0]
    dsimp only
    refine (out_new c (grid0.coords t) (ms0_0 t) (hs0_0 t) (ms0_1 t) (hs0_1 t) (ms0_2 t) (hs0_2 t) (ms0_3 t) (hs0_3 t) scM0_0 (Memref.isWhole_whole _)
      ((hcond0_0 t).mpr h0) (iblk m c 0 t) (iblk m c 1 t) (iblk m c 2 t)).trans ?_
    exact congrArg (fun s => k0_pay3 (F := Ideal) (weightRows (grid0.coords t) (iblk m c 1 t))
      (biasEntries (grid0.coords t) (iblk m c 2 t)) (workArray (iblk m c 0 s)))
      (Fin.ext (by show t.val = t.val - t.val % 6; omega))
  · rw [outsAt0_B m c t h0]
    dsimp only
    refine (out_old c (grid0.coords t) (ms0_0 t) (hs0_0 t) (ms0_1 t) (hs0_1 t) (ms0_2 t) (hs0_2 t) (ms0_3 t) (hs0_3 t) scM0_0 (Memref.isWhole_whole _)
      (fun h => h0 ((hcond0_0 t).mp h)) (iblk m c 0 t) (iblk m c 1 t) (iblk m c 2 t)
      (outsAt0 m c (t.val - 1) (Nat.lt_of_le_of_lt (Nat.sub_le _ _) t.isLt)).2).trans ?_
    rw [scratch_at m c (t.val - 1) (Nat.lt_of_le_of_lt (Nat.sub_le _ _) t.isLt)]
    exact congrArg (fun s => k0_pay3 (F := Ideal) (weightRows (grid0.coords t) (iblk m c 1 t))
      (biasEntries (grid0.coords t) (iblk m c 2 t)) (workArray (iblk m c 0 s)))
      (Fin.ext (by show t.val - 1 - (t.val - 1) % 6 = t.val - t.val % 6; omega))

end Cert.KernelIdeal.GridValue

end
-- ==== Proof.BlockValue.lean ====
/-
  What each point writes back is its block of ONE array.

  Point `t` writes back output block (`t / 6`, 0, `t % 6`): sequences `4 (t / 6) …`, all 276 windows, output
  features `512 (t % 6) …`. Its input tile is block `t / 6` of the input, its weight rows and bias entries are
  rows / entries `512 (t % 6) …` of the whole weight matrix and bias row. So entry (a, n, o) of what it writes is
  the layer's output at (4 (t / 6) + a, n, 512 (t % 6) + o), computed from the arrays as the kernel finds them.
-/
import proofs.«122776_j82832739270909_2_alg».proof.Proof.GridValue

noncomputable section

open scoped BigOperators

namespace Cert.KernelIdeal.BlockValue

open Idealize.ShloMosaic Idealize.ShloMosaic.TcCoe Idealize.ShloMosaic.Tactic Idealize.ShloMosaic.ValueIdx
open Idealize.SL Idealize.SL.Sem
open Idealize.ShloMosaic.Pipeline (Dat)
open Cert.KernelIdeal Cert.KernelIdeal.Gen Cert.KernelIdeal.BodyValue Cert.KernelIdeal.TileValue
open Cert.KernelIdeal.CaseValue Cert.KernelIdeal.GridValue Cert.Windows

variable (m : (ℓ : Loc nD τ sig) → Buf (Elt Ideal) ℓ)

/-- The input tile of point `t`, at (sequence `a` of the tile, step `s`, feature `d`): the input array at
    sequence `4 (t / 6) + a`. -/
theorem tile_entry (c : Dev nD) (t : Fin cfg0.N) (a : Fin 4) (s : Fin 288) (d : Fin 256) :
    iblk m c 0 t (ix3 a s d)
      = V m c main_arg0 (ix3 (⟨4 * (t.val / 6) + a.val, by
          have hN : cfg0.N = 96 := N_0; have := t.isLt; have := a.isLt; omega⟩ : Fin 64) s d) := by
  obtain ⟨e0, e1, e2, -⟩ := idx_facts t
  unfold iblk
  rw [View.read_apply]
  show V m c main_arg0 (((cfg0.win 0).blk t).view.emb (ix3 a s d)) = V m c main_arg0 _
  refine congrArg (V m c main_arg0) (funext fun ax => Fin.ext ?_)
  match ax with
  | ⟨0, _⟩ => show win0_0.index t (0 : Fin 3) * 4 + 1 * a.val = 4 * (t.val / 6) + a.val; rw [e0]; omega
  | ⟨1, _⟩ => show win0_0.index t (1 : Fin 3) * 288 + 1 * s.val = s.val; rw [e1]; omega
  | ⟨2, _⟩ => show win0_0.index t (2 : Fin 3) * 256 + 1 * d.val = d.val; rw [e2]; omega

/-- The weight block of every point is the whole weight matrix. -/
theorem weight_entry (c : Dev nD) (t : Fin cfg0.N) (r : Fin 3072) (k : Fin 3072) :
    iblk m c 1 t (ix2 r k) = V m c main_v0 (ix2 r k) := by
  obtain ⟨-, -, -, e0, e1, -⟩ := idx_facts t
  unfold iblk
  rw [View.read_apply]
  show V m c main_v0 (((cfg0.win 1).blk t).view.emb (ix2 r k)) = V m c main_v0 _
  refine congrArg (V m c main_v0) (funext fun ax => Fin.ext ?_)
  match ax with
  | ⟨0, _⟩ => show win0_1.index t (0 : Fin 2) * 3072 + 1 * r.val = r.val; rw [e0]; omega
  | ⟨1, _⟩ => show win0_1.index t (1 : Fin 2) * 3072 + 1 * k.val = k.val; rw [e1]; omega

/-- The bias block of every point is the whole bias row. -/
theorem bias_entry (c : Dev nD) (t : Fin cfg0.N) (z : Fin 1) (o : Fin 3072) :
    iblk m c 2 t (ix2 z o) = V m c main_v1 (ix2 z o) := by
  obtain ⟨-, -, -, -, -, e0, e1, -⟩ := idx_facts t
  unfold iblk
  rw [View.read_apply]
  show V m c main_v1 (((cfg0.win 2).blk t).view.emb (ix2 z o)) = V m c main_v1 _
  refine congrArg (V m c main_v1) (funext fun ax => Fin.ext ?_)
  match ax with
  | ⟨0, _⟩ => show win0_2.index t (0 : Fin 2) * 1 + 1 * z.val = z.val; rw [e0]; omega
  | ⟨1, _⟩ => show win0_2.index t (1 : Fin 2) * 3072 + 1 * o.val = o.val; rw [e1]; omega

/-- Row `o` of the weight rows point `t` uses is row `512 (t % 6) + o` of its weight block. -/
theorem weightRows_apply (t : Fin cfg0.N) (x1 : Vec Ideal S3072x3072 .bf16) (o : Fin 512) (k : Fin 3072) :
    weightRows (grid0.coords t) x1 (ix2 o k)
      = x1 (ix2 (⟨512 * (t.val % 6) + o.val, by have := o.isLt; omega⟩ : Fin 3072) k) := by
  obtain ⟨-, -, -, -, -, -, -, -, -, -, e0, e1, -⟩ := idx_facts t
  unfold weightRows
  show x1 ((Rect.unit (s := S3072x3072) (k0_off1 (grid0.coords t)) S512x3072.size (k0_off1_inb (grid0.coords t))).idx (ix2 o k)) = _
  refine congrArg x1 (funext fun ax => Fin.ext ?_)
  match ax with
  | ⟨0, _⟩ => show k0_off1 (grid0.coords t) (0 : Fin 2) + 1 * o.val = 512 * (t.val % 6) + o.val; rw [e0]; omega
  | ⟨1, _⟩ => show k0_off1 (grid0.coords t) (1 : Fin 2) + 1 * k.val = k.val; rw [e1]; omega

/-- Entry `o` of the bias entries point `t` uses is entry `512 (t % 6) + o` of its bias block. -/
theorem biasEntries_apply (t : Fin cfg0.N) (x2 : Vec Ideal S1x3072 .f32) (o : Fin 512) :
    biasEntries (grid0.coords t) x2 (ix2 (0 : Fin 1) o)
      = x2 (ix2 (0 : Fin 1) (⟨512 * (t.val % 6) + o.val, by have := o.isLt; omega⟩ : Fin 3072)) := by
  obtain ⟨-, -, -, -, -, -, -, -, -, -, -, -, e0, e1⟩ := idx_facts t
  unfold biasEntries
  show x2 ((Rect.unit (s := S1x3072) (k0_off2 (grid0.coords t)) S1x512.size (k0_off2_inb (grid0.coords t))).idx (ix2 (0 : Fin 1) o)) = _
  refine congrArg x2 (funext fun ax => Fin.ext ?_)
  match ax with
  | ⟨0, _⟩ => show k0_off2 (grid0.coords t) (0 : Fin 2) + 1 * 0 = 0; rw [e0]
  | ⟨1, _⟩ => show k0_off2 (grid0.coords t) (1 : Fin 2) + 1 * o.val = 512 * (t.val % 6) + o.val; rw [e1]; omega

/-- The kernel's result array as ONE function of the arrays it finds: the layer's output of the input, the weight
    matrix it is given (narrowed, which changes nothing on the extended reals) and the bias row it is given. -/
def kernelOut (c : Dev nD) : Buf (Elt Ideal) ((c : Thread nD τ).loc main_v2) :=
  outArr (V m c main_arg0) (V m c main_v0)
    (fun i => V m c main_v1 (ix2 (0 : Fin 1) (⟨(i 0).val, (i 0).isLt⟩ : Fin 3072)))

theorem kernelOut_apply (c : Dev nD) (b : Fin 64) (n : Fin 276) (o : Fin 3072) :
    kernelOut m c (ix3 b n o)
      = out (V m c main_arg0) (V m c main_v0)
          (fun i => V m c main_v1 (ix2 (0 : Fin 1) (⟨(i 0).val, (i 0).isLt⟩ : Fin 3072))) b n o := rfl

/-- WHAT POINT `t` WRITES BACK is block `t` of that array. -/
theorem flushed_eq (c : Dev nD) (t : Fin cfg0.N) :
    (dats m 0 c).flushed 3 t = ((cfg0.win 3).blk t).view.read (Elt Ideal) (kernelOut m c) := by
  have hN : cfg0.N = 96 := N_0
  have ht := t.isLt
  obtain ⟨-, -, -, -, -, -, -, e0, e1, e2, -⟩ := idx_facts t
  show (cfg0.win 3).cut (grid0.coords t) ((dats m 0 c).after 3 t) = _
  rw [after0_3, out_at]
  funext y
  have h0 : (y 0).val < 4 := (y 0).isLt
  have h1 : (y 1).val < 276 := (y 1).isLt
  have h2 : (y 2).val < 512 := (y 2).isLt
  have ey : (cfg0.win 3).xinj (grid0.coords t) y = ix3 (⟨(y 0).val, h0⟩ : Fin 4) (⟨(y 1).val, h1⟩ : Fin 276) (⟨(y 2).val, h2⟩ : Fin 512) :=
    funext fun ax => by match ax with | ⟨0, _⟩ => rfl | ⟨1, _⟩ => rfl | ⟨2, _⟩ => rfl
  have eI : ((cfg0.win 3).blk t).view.emb y
      = ix3 (⟨4 * (t.val / 6) + (y 0).val, by omega⟩ : Fin 64) (⟨(y 1).val, h1⟩ : Fin 276)
          (⟨512 * (t.val % 6) + (y 2).val, by omega⟩ : Fin 3072) := by
    funext ax; apply Fin.ext
    match ax with
    | ⟨0, _⟩ => show win0_3.index t (0 : Fin 3) * 4 + 1 * (y 0).val = 4 * (t.val / 6) + (y 0).val; rw [e0]; omega
    | ⟨1, _⟩ => show win0_3.index t (1 : Fin 3) * 276 + 1 * (y 1).val = (y 1).val; rw [e1]; omega
    | ⟨2, _⟩ => show win0_3.index t (2 : Fin 3) * 512 + 1 * (y 2).val = 512 * (t.val % 6) + (y 2).val; rw [e2]; omega
  rw [View.read_apply]
  show k0_pay3 (F := Ideal) (weightRows (grid0.coords t) (iblk m c 1 t)) (biasEntries (grid0.coords t) (iblk m c 2 t))
      (workArray (iblk m c 0 (tileStart t.val t.isLt))) ((cfg0.win 3).xinj (grid0.coords t) y)
    = kernelOut m c (((cfg0.win 3).blk t).view.emb y)
  rw [ey, eI, kernelOut_apply]
  refine (tile_apply (grid0.coords t) (iblk m c 0 (tileStart t.val t.isLt)) (iblk m c 1 t) (iblk m c 2 t)
    (⟨(y 0).val, h0⟩ : Fin 4) (⟨(y 1).val, h1⟩ : Fin 276) (⟨(y 2).val, h2⟩ : Fin 512)).trans ?_
  have es : (tileStart t.val t.isLt).val / 6 = t.val / 6 := by show (t.val - t.val % 6) / 6 = t.val / 6; omega
  have eb : ∀ hb hb', (⟨4 * ((tileStart t.val t.isLt).val / 6) + (y 0).val, hb⟩ : Fin 64)
      = ⟨4 * (t.val / 6) + (y 0).val, hb'⟩ := fun _ _ => Fin.ext (congrArg (fun q => 4 * q + (y 0).val) es)
  unfold out window
  refine congrArg₂ (· + ·) ?_ ?_
  · refine Finset.sum_congr rfl fun k _ => ?_
    rw [tile_entry m c (tileStart t.val t.isLt), weightRows_apply t (iblk m c 1 t), weight_entry m c t, eb]
  · rw [biasEntries_apply t (iblk m c 2 t), bias_entry m c t]

end Cert.KernelIdeal.BlockValue

end
-- ==== Proof.RunValue.lean ====
/-
  The kernel's run, read: its result is the layer's output of its arguments, regrouped.

  The output's 16 × 6 blocks of [4, 276, 512] tile the array [64, 276, 3072] (index `i` lies in the block of point
  `6 (i₀ / 4) + i₂ / 512`), every point writes its block back, and what it writes is its block of one array; so the
  array ends holding that array. Before the kernel the program narrows the weight matrix (the identity on the
  extended reals) and regroups the bias as a row; after it, it regroups [64, 276, 3072] as [64, 276, 12, 256].
-/
import proofs.«122776_j82832739270909_2_alg».proof.Proof.BlockValue
import Idealize.ShloMosaic.Lib.StableHlo.Run

noncomputable section

open scoped BigOperators

namespace Cert.KernelIdeal.RunValue

open Idealize.ShloMosaic Idealize.ShloMosaic.TcCoe Idealize.ShloMosaic.Tactic Idealize.ShloMosaic.ValueIdx
open Idealize.SL Idealize.SL.Sem
open Idealize.ShloMosaic.Pipeline (Dat)
open Cert.KernelIdeal Cert.KernelIdeal.Gen Cert.KernelIdeal.BlockValue Cert.KernelIdeal.GridValue Cert.Windows

variable (m : (ℓ : Loc nD τ sig) → Buf (Elt Ideal) ℓ) (ρ : Dev nD → PrngReg)

/-- An index of the result array is in point `t`'s block iff each coordinate is in the block's range on its axis. -/
theorem mem_blk (t : Fin cfg0.N) (i : S64x276x3072.Idx) :
    i ∈ ((cfg0.win 3).blk t).view.set ↔ ∀ a : Fin 3, win0_3.index t a * S4x276x512.size a ≤ (i a).val
      ∧ (i a).val < win0_3.index t a * S4x276x512.size a + S4x276x512.size a := by
  show i ∈ ((View.whole main_v2).slice (win0_3.rect t)).set ↔ _
  rw [View.set_slice_whole, Rect.mem_set_unit]
  exact Iff.rfl

/-- Every index of the result array is in the block of some point: the point of its tile and feature block. -/
theorem covered (i : S64x276x3072.Idx) :
    ∃ t : Fin cfg0.N, (cfg0.win 3).flush t = true ∧ i ∈ ((cfg0.win 3).blk t).view.set := by
  have hN : cfg0.N = 96 := N_0
  have h0 : (i 0).val < 64 := (i 0).isLt
  have h1 : (i 1).val < 276 := (i 1).isLt
  have h2 : (i 2).val < 3072 := (i 2).isLt
  have hv : ∃ t : Fin cfg0.N, t.val = 6 * ((i 0).val / 4) + (i 2).val / 512 :=
    ⟨⟨6 * ((i 0).val / 4) + (i 2).val / 512, by omega⟩, rfl⟩
  obtain ⟨t, ht⟩ := hv
  obtain ⟨-, -, -, -, -, -, -, e0, e1, e2, -⟩ := idx_facts t
  refine ⟨t, flush0_3 t, ?_⟩
  rw [mem_blk]
  intro a
  match a with
  | ⟨0, _⟩ =>
    show win0_3.index t (0 : Fin 3) * 4 ≤ (i 0).val ∧ (i 0).val < win0_3.index t (0 : Fin 3) * 4 + 4
    rw [e0, ht]; omega
  | ⟨1, _⟩ =>
    show win0_3.index t (1 : Fin 3) * 276 ≤ (i 1).val ∧ (i 1).val < win0_3.index t (1 : Fin 3) * 276 + 276
    rw [e1]; omega
  | ⟨2, _⟩ =>
    show win0_3.index t (2 : Fin 3) * 512 ≤ (i 2).val ∧ (i 2).val < win0_3.index t (2 : Fin 3) * 512 + 512
    rw [e2, ht]; omega

/-- So the result array ends holding the one array every point writes its block of. -/
theorem final (c : Dev nD) : (dats m 0 c).arrAt 3 cfg0.N = kernelOut m c :=
  (dats m 0 c).arrAt_eq_of_cover 3 (kernelOut m c) (fun t _ => flushed_eq m c t) covered

/-- The weight matrix as the kernel finds it: the argument, narrowed. -/
theorem V_weights (c : Dev nD) :
    (V m c main_v0 : S3072x3072.Idx → EReal)
      = truncf (F := Ideal) .bf16 (m ((c : Thread nD τ).loc main_arg1)) bitsLt_bf16_f32 := by
  show StableHlo.after hostOps0 (fun b => m (c, b)) (Proc.devRef .tc main_v0) = _
  after_results <;> rfl

/-- The bias as the kernel finds it: the argument, regrouped as a row. -/
theorem V_bias (c : Dev nD) :
    (V m c main_v1 : S1x3072.Idx → EReal)
      = shapeCast S1x3072 (m ((c : Thread nD τ).loc main_arg2)) shapeCasts_S3072_S1x3072 := by
  show StableHlo.after hostOps0 (fun b => m (c, b)) (Proc.devRef .tc main_v1) = _
  after_results <;> rfl

/-- The kernel's result array is the layer's output of the program's three arguments. -/
theorem kernelOut_eq (c : Dev nD) :
    kernelOut m c = outArr (m ((c : Thread nD τ).loc main_arg0)) (m ((c : Thread nD τ).loc main_arg1))
      (m ((c : Thread nD τ).loc main_arg2)) := by
  funext i
  obtain ⟨b, n, o, rfl⟩ : ∃ (b : Fin 64) (n : Fin 276) (o : Fin 3072), i = ix3 b n o := ⟨i 0, i 1, i 2, eq_ix3 i⟩
  rw [kernelOut_apply, outArr_apply]
  unfold out window
  refine congrArg₂ (· + ·) ?_ ?_
  · refine Finset.sum_congr rfl fun k _ => ?_
    rw [congrFun (V_main_arg0 m c) _, congrFun (V_weights m c) _]
    rfl
  · show V m c main_v1 (ix2 (0 : Fin 1) o) = _
    rw [congrFun (V_bias m c) _]
    refine shapeCast_apply _ shapeCasts_S3072_S1x3072 (ix2 (0 : Fin 1) o) (ix1 o) ?_
    rw [Shape.rowMajor_val_one, Shape.rowMajor_val_two]
    show o.val = 0 * 3072 + o.val
    omega

/-- The kernel's whole program, run: its result is the layer's output of its arguments regrouped as
    [64, 276, 12, 256], and its arguments are unchanged. -/
theorem run : θ_run defs (onTc (τ := τ) (main (F := Ideal))) ⟨m, fun _ => 0, ρ⟩ fun r => ∀ c : Dev nD,
      r.2.mem ((c.tc : Thread nD τ).loc main_v3)
        = shapeCast S64x276x12x256 (outArr (m ((c.tc : Thread nD τ).loc main_arg0)) (m ((c.tc : Thread nD τ).loc main_arg1))
            (m ((c.tc : Thread nD τ).loc main_arg2))) shapeCasts_S64x276x3072_S64x276x12x256
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := by
  refine (θ_run defs _ _).mono (fun r h c => ⟨?_, ?_, ?_, ?_⟩) (run_main m ρ)
  · refine ((h c).2 main_v3 (Pipeline.mem_restRefs_of main_v3 (by decide) (by decide))).trans ?_
    unfold Pipeline.afterTail₀
    show StableHlo.after hostOps1 _ (Proc.devRef .tc main_v3) = _
    after_results
    refine congrArg (fun x => shapeCast S64x276x12x256 x shapeCasts_S64x276x3072_S64x276x12x256) ?_
    exact ((Pipeline.withArrays_arr spec0 launch0.win.arr_inj c _ _ 3).trans (final m c)).trans (kernelOut_eq m c)
  · exact ((h c).1 0).trans (((dats m 0 c).arrAt_in 0 rfl _).trans ((A_eq m c 0).trans (V_main_arg0 m c)))
  · exact ((h c).2 main_arg1 (Pipeline.mem_restRefs_of main_arg1 (by decide) (by decide))).trans (W_main_arg1 m (dats m) c)
  · exact ((h c).2 main_arg2 (Pipeline.mem_restRefs_of main_arg2 (by decide) (by decide))).trans (W_main_arg2 m (dats m) c)

end Cert.KernelIdeal.RunValue

end
-- ==== Proof.lean ====
/-
  The certificate: a sliding-window linear layer computed by a tiled kernel equals its one-line reference.

  Input `inp` : [64, 288, 256] (64 sequences, 288 time steps, 256 features), weights `W` : [3072, 3072], bias
  `b` : [3072]. Window `n` (of 276) of a sequence is its 12 consecutive steps `n … n + 11` laid side by side as 3072
  numbers, and

      out(s, n, o) = Σ_{k < 3072} inp(s, n + k / 256, k % 256) · W(o, k) + b(o),

  regrouped at the end from [64, 276, 3072] to [64, 276, 12, 256].

  The reference gathers the windows (start indices `n + p` from two counters; the wrap of negative indices and the
  clamp of the gather never fire, since `n + p ≤ 286 < 288`), contracts them with `W` and adds `b`. The kernel takes
  four sequences at a time; at the first of a tile's six output-feature blocks it lays the tile's twelve shifted
  copies side by side in a work array (row `t · 276 + n`, column `k` holds inp(4 i + t, n + k / 256, k % 256)),
  which the other five blocks reuse; every block multiplies the work array by 512 rows of `W` and adds 512 entries
  of `b`. On the extended reals narrowing to a shorter float format is the identity and a matrix product into a
  zero accumulator is the exact sum, so both programs compute the sum above term by term: the two sides are joined
  by re-indexing alone (rows of the work array are windows; blocks tile the result), and no entry has to be finite.

  Modules: Spec (the layer), RefRead (the reference is the layer), BodyValue (the body's stored values at an
  index), TileValue (the twelve stores read back as the work array), CaseValue (the body's two cases), GridValue
  (induction over the grid: the work array is carried within a tile), BlockValue (each point writes its block of
  one array), RunValue (the blocks tile the result; the host operations around the kernel).
-/
import proofs.«122776_j82832739270909_2_alg».proof.Defs
import proofs.«122776_j82832739270909_2_alg».proof.Proof.Gen.Kernel
import proofs.«122776_j82832739270909_2_alg».proof.Proof.Gen.Kernel.Skeleton
import proofs.«122776_j82832739270909_2_alg».proof.Proof.Gen.Kernel.Launch
import proofs.«122776_j82832739270909_2_alg».proof.Proof.Gen.Kernel.Points
import proofs.«122776_j82832739270909_2_alg».proof.Proof.Gen.Kernel.Frame
import proofs.«122776_j82832739270909_2_alg».proof.Proof.Gen.KernelIdeal
import proofs.«122776_j82832739270909_2_alg».proof.Proof.Gen.KernelIdeal.Skeleton
import proofs.«122776_j82832739270909_2_alg».proof.Proof.Gen.KernelIdeal.Launch
import proofs.«122776_j82832739270909_2_alg».proof.Proof.Gen.KernelIdeal.Points
import proofs.«122776_j82832739270909_2_alg».proof.Proof.Gen.KernelIdeal.Frame
import proofs.«122776_j82832739270909_2_alg».proof.Proof.Gen.ReferenceIdeal
import proofs.«122776_j82832739270909_2_alg».proof.Proof.Gen.ReferenceIdeal.Run
import proofs.«122776_j82832739270909_2_alg».proof.Proof.Gen.ReferenceIdeal.Read
import proofs.«122776_j82832739270909_2_alg».proof.Proof.Gen.Pre_finite_inputs
import proofs.«122776_j82832739270909_2_alg».proof.Proof.RefRead
import proofs.«122776_j82832739270909_2_alg».proof.Proof.RunValue
import Idealize.ShloMosaic.Adequacy
import Idealize.ShloMosaic.Init

noncomputable section

namespace Cert.Proof

open Idealize.ShloMosaic Idealize.ShloMosaic.TcCoe Idealize.SL.Sem

/-- The kernel as printed runs, and leaves its arguments as they were. -/
theorem frame_kernel : Cert.frame_Kernel := fun m ρ _ => Cert.Kernel.Gen.frame m ρ

/-- So does its reading on the extended reals. -/
theorem frame_kernelIdeal : Cert.frame_KernelIdeal := fun m ρ _ => Cert.KernelIdeal.Gen.frame m ρ

/-- The reference runs and leaves its arguments as they were: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Reading the kernel on the extended reals rewrote none of its operations. -/
theorem preserves : Cert.preserves_Kernel_KernelIdeal := trivial

/-- On the extended reals, from memories that agree on the three arguments, the kernel's program and the reference
    both end with the layer's output regrouped as [64, 276, 12, 256]. -/
theorem algebraic : Cert.algebraic_KernelIdeal_ReferenceIdeal := by
  intro m ρ m' ρ' _ hagree
  refine ⟨_, Cert.KernelIdeal.RunValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v19_eq]
  unfold Cert.ReferenceIdeal.Read.val_main_v19
  rw [Cert.ReferenceIdeal.RefValue.ref_eq, (hagree c).1, (hagree c).2.1, (hagree c).2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
